-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S50000 32) (main_arg1 : IVec S2x800000 32) (main_arg2 : FVec F S50000x128 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S5000x128 : Shape := ⟨2, ![5000, 128]⟩
abbrev S5000x1 : Shape := ⟨2, ![5000, 1]⟩
abbrev S5000x64 : Shape := ⟨2, ![5000, 64]⟩

abbrev nBuf : Space → Nat
  | .hbm => 61
  | .vmem => 15
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000x128, .f32⟩
  | .hbm, ⟨36, _⟩ => ⟨S_, .f32⟩
  | .hbm, ⟨37, _⟩ => ⟨S50000x128, .f32⟩
  | .hbm, ⟨38, _⟩ => ⟨S850000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_cst_0 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst_1 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_c : Ref sig .tc := ⟨.hbm, 27, rfl⟩
abbrev main_call0_v17 : Ref sig .tc := ⟨.hbm, 28, rfl⟩
abbrev main_call0_v18 : Ref sig .tc := ⟨.hbm, 29, rfl⟩
abbrev main_call0_c_2 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_cst_3 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_c_4 : Ref sig .tc := ⟨.hbm, 43, rfl⟩
abbrev main_call0_v30 : Ref sig .tc := ⟨.hbm, 44, rfl⟩
abbrev main_call0_v31 : Ref sig .tc := ⟨.hbm, 45, rfl⟩
abbrev main_call0_c_5 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_cst_6 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_v0 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_call0_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S1x800000, .i32⟩
  | .hbm, ⟨67, _⟩ => ⟨S800000, .i32⟩
  | .hbm, ⟨68, _⟩ => ⟨S1x800000, .i32⟩
  | .hbm, ⟨69, _⟩ => ⟨S800000, .i32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x128, .f32⟩
  | .hbm, ⟨111, _⟩ => ⟨S850000x1, .f32⟩
  | .hbm, ⟨112, _⟩ => ⟨S850000x128, .f32⟩
  | .hbm, ⟨113, _⟩ => ⟨S850000x128, .f32⟩
  | .hbm, ⟨114, _⟩ => ⟨S_, .f32⟩
  | .hbm, ⟨115, _⟩ => ⟨S50000x128, .f32⟩
  | .hbm, ⟨116, _⟩ => ⟨S850000x1, .i32⟩
  | .hbm, ⟨117, _⟩ => ⟨S50000x128, .f32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result NAMED.

  The program is a stretch of host operations, two pipelined kernel regions, and a second stretch of host operations.
  The contents of every unscoped buffer at the four boundaries are a fold from the launch memory (W0 … W4 of the
  generated frame module).  Every weakly fair execution terminates without a fault with every such buffer at the last
  boundary's contents; read at the result buffer this names the result, and read at an argument it is the launch
  contents.
-/
import proofs.«121720_j3246995276080_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_named : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KernelPay.lean ====
/-
  What each kernel body computes, entry by entry, over the extended reals.

  Both bodies take a block of 5000 rows: each row is scaled by that row's entry of a one-column block, multiplied on the
  right by a weight matrix (a matrix product into a zero accumulator is the plain sum over the contracted axis); the
  first body then adds a bias row and takes the maximum with zero.  Changes of float format are the identity here.
-/
import proofs.«121720_j3246995276080_2_alg».proof.Proof.Gen.KernelIdeal.Skeleton
import proofs.«121720_j3246995276080_2_alg».proof.Proof.Gen.KernelIdeal
import proofs.«121720_j3246995276080_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.ShloMosaic.ValueIdx

/-- The first body's matrix product: [5000,128] by [128,128]. -/
abbrev D0 : DotDims S5000x128 S128x128 S5000x128 := dot_S5000x128_S128x128_S5000x128_1_0_0_1_n_n
/-- The second body's matrix product: [5000,128] by [128,64]. -/
abbrev D1 : DotDims S5000x128 S128x64 S5000x64 := dot_S5000x128_S128x64_S5000x64_1_0_0_1_n_n
abbrev D0_SO : Shape := S5000x128
abbrev D1_SO : Shape := S5000x64

theorem lhs0_0 (i : D0_SO.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs0_1 (i : D0_SO.Idx) (q : D0.contr.Idx) : (D0.lhsIdx i q 1).val = (q ⟨0, by decide⟩).val :=
  D0.lhsIdx_val_of_single rfl i q
theorem rhs0_0 (i : D0_SO.Idx) (q : D0.contr.Idx) : (D0.rhsIdx i q 0).val = (q ⟨0, by decide⟩).val :=
  D0.rhsIdx_val_of_single rfl i q
theorem rhs0_1 (i : D0_SO.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem lhs1_0 (i : D1_SO.Idx) (q : D1.contr.Idx) : (D1.lhsIdx i q 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem lhs1_1 (i : D1_SO.Idx) (q : D1.contr.Idx) : (D1.lhsIdx i q 1).val = (q ⟨0, by decide⟩).val :=
  D1.lhsIdx_val_of_single rfl i q
theorem rhs1_0 (i : D1_SO.Idx) (q : D1.contr.Idx) : (D1.rhsIdx i q 0).val = (q ⟨0, by decide⟩).val :=
  D1.rhsIdx_val_of_single rfl i q
theorem rhs1_1 (i : D1_SO.Idx) (q : D1.contr.Idx) : (D1.rhsIdx i q 1).val = (i 1).val := by
  unfold DotDims.rhsIdx
  rw [dif_neg (show ¬(1 : Fin S128x64.rank) ∈ D1.rhsBatch by decide), dif_pos (show (1 : Fin S128x64.rank) ∈ D1.rhsNonContracting by decide)]
  rfl

/-- The first matrix product at (p, q): the sum over k of left (p, k) times right (k, q). -/
theorem matmul0_apply (l : FVec Ideal S5000x128 .bf16) (r : FVec Ideal S128x128 .bf16) (p : Fin 5000) (q : Fin 128) :
    matmul D0 none l r (constant S5000x128 .f32 0x00000000#32) (ix2 p q) = ∑ k : Fin 128, l (ix2 p k) * r (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  rw [el, er]

/-- The second matrix product at (p, q). -/
theorem matmul1_apply (l : FVec Ideal S5000x128 .bf16) (r : FVec Ideal S128x64 .bf16) (p : Fin 5000) (q : Fin 64) :
    matmul D1 none l r (constant S5000x64 .f32 0x00000000#32) (ix2 p q) = ∑ k : Fin 128, l (ix2 p k) * r (ix2 k q) := by
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 128 rfl rfl).symm k) = ix2 k q := funext fun a => Fin.ext (by
    match a with
    | ⟨0, _⟩ => exact (rhs1_0 _ _).trans hk
    | ⟨1, _⟩ => exact rhs1_1 _ _)
  rw [el, er]

/-- The first body's stored value at (p, q): max (Σ_k (x0 (p,k) · x1 (p,0)) · x2 (k,q) + x3 (0,q)) 0. -/
theorem pay0_apply (x0 : Vec Ideal S5000x128 .f32) (x1 : Vec Ideal S5000x1 .f32) (x2 : Vec Ideal S128x128 .f32)
    (x3 : Vec Ideal S1x128 .f32) (p : Fin 5000) (q : Fin 128) :
    k0_pay1 (F := Ideal) x0 x1 x2 x3 (ix2 p q)
      = max ((∑ k : Fin 128, (x0 (ix2 p k) * x1 (ix2 p (0 : Fin 1))) * x2 (ix2 k q)) + x3 (ix2 (0 : Fin 1) q))
          (Ideal.ofBits .f32 0x00000000#32) := by
  unfold k0_pay1
  simp only [maximumf_apply, addf_apply, broadcast_apply]
  rw [matmul0_apply]
  simp only [truncf_apply, mulf_apply, shapeCast_self, broadcastTo_a1_ab_apply, broadcastTo_1b_ab_apply]
  rfl

/-- The second body's stored value at (p, q): Σ_k (x0 (p,k) · x1 (p,0)) · x2 (k,q). -/
theorem pay1_apply (x0 : Vec Ideal S5000x128 .f32) (x1 : Vec Ideal S5000x1 .f32) (x2 : Vec Ideal S128x64 .f32)
    (p : Fin 5000) (q : Fin 64) :
    k1_pay1 (F := Ideal) x0 x1 x2 (ix2 p q)
      = ∑ k : Fin 128, (x0 (ix2 p k) * x1 (ix2 p (0 : Fin 1))) * x2 (ix2 k q) := by
  unfold k1_pay1
  rw [matmul1_apply]
  simp only [truncf_apply, mulf_apply, shapeCast_self, broadcastTo_a1_ab_apply]

end Cert.KernelIdeal.KVal

end
-- ==== Proof.KernelBlocks.lean ====
/-
  What each kernel region leaves in its output array, as one function of the arrays it reads.

  The grid has ten points; point t stages rows 5000·t … 5000·t + 4999 of the 50000-row arrays (all 128 lanes, and the one
  lane of the one-column array), the whole weight matrix and the whole bias row, and writes back rows 5000·t … of the
  output.  The ten row blocks tile the output, so the output ends holding, at every (r, q),
  max (Σ_k (A (r,k) · d (r,0)) · W (k,q) + b (0,q)) 0.  The second region is the same over 64 output lanes, without
  the bias and the maximum.
-/
import proofs.«121720_j3246995276080_2_alg».proof.Proof.Gen.KernelIdeal.Frame
import proofs.«121720_j3246995276080_2_alg».proof.Proof.KernelPay

set_option maxRecDepth 16384

noncomputable section

open scoped BigOperators

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The first region's output at row r, lane q. -/
def R0e (A : S50000x128.Idx → EReal) (d : S50000x1.Idx → EReal) (W : S128x128.Idx → EReal) (b : S1x128.Idx → EReal)
    (r : Fin 50000) (q : Fin 128) : EReal :=
  max ((∑ k : Fin 128, (A (ix2 r k) * d (ix2 r (0 : Fin 1))) * W (ix2 k q)) + b (ix2 (0 : Fin 1) q))
    (Ideal.ofBits .f32 0x00000000#32)

/-- The first region's output array. -/
def R0 (A : S50000x128.Idx → EReal) (d : S50000x1.Idx → EReal) (W : S128x128.Idx → EReal) (b : S1x128.Idx → EReal) :
    S50000x128.Idx → EReal :=
  fun i => R0e A d W b ⟨(i 0).val, idx2_lt0 i⟩ ⟨(i 1).val, idx2_lt1 i⟩

/-- One block: if the staged blocks are rows T·5000 … of A and d, the whole of W and of b, the body's stored value at
    a block index y is the output function at the array index i that y names. -/
theorem R0_block (A : S50000x128.Idx → EReal) (d : S50000x1.Idx → EReal) (W : S128x128.Idx → EReal) (b : S1x128.Idx → EReal)
    (x0 : Vec Ideal S5000x128 .f32) (x1 : Vec Ideal S5000x1 .f32) (x2 : Vec Ideal S128x128 .f32) (x3 : Vec Ideal S1x128 .f32)
    (T : Nat) (hT : T * 5000 + 5000 ≤ 50000)
    (h0 : ∀ (p : Fin 5000) (k : Fin 128), x0 (ix2 p k) = A (ix2 ⟨T * 5000 + p.val, by omega⟩ k))
    (h1 : ∀ (p : Fin 5000), x1 (ix2 p (0 : Fin 1)) = d (ix2 ⟨T * 5000 + p.val, by omega⟩ (0 : Fin 1)))
    (h2 : x2 = W) (h3 : x3 = b)
    (y : S5000x128.Idx) (i : S50000x128.Idx) (hi0 : (i 0).val = T * 5000 + (y 0).val) (hi1 : (i 1).val = (y 1).val) :
    k0_pay1 (F := Ideal) x0 x1 x2 x3 y = R0 A d W b i := by
  obtain ⟨p, q, rfl⟩ : ∃ (p : Fin 5000) (q : Fin 128), y = ix2 p q := ⟨y 0, y 1, eq_ix2 y⟩
  rw [pay0_apply]
  unfold R0 R0e
  have e0 : (⟨(i 0).val, idx2_lt0 i⟩ : Fin 50000) = ⟨T * 5000 + p.val, by omega⟩ := Fin.ext hi0
  have e1 : (⟨(i 1).val, idx2_lt1 i⟩ : Fin 128) = q := Fin.ext hi1
  rw [e0, e1, h2, h3, h1 p]
  congr 2
  exact Finset.sum_congr rfl fun k _ => by rw [h0 p k]

section Region0
variable (V : (c : Dev nD) → (b : Ref sig .tc) → Buf (Elt Ideal) ((c : Thread nD τ).loc b))

/-- The printed index maps over the grid: the row-blocked windows move with the grid point, the others stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 10 :=
  (by decide +kernel : ∀ t : Fin grid0.N, _)

/-- What point t writes back is block t of the output function of the arrays as the region finds them. -/
theorem flushed0_eq (c : Dev nD) (t : Fin cfg0.N) :
    (dat0 V c).flushed 4 t = ((cfg0.win 4).blk t).view.read (Elt Ideal)
      (R0 (V c main_call0_v26) (V c main_call0_v14) (V c main_arg3) (V c main_call0_v27)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨a0, a1, b0, b1, c0, c1, d0, d1, e0, e1, ht⟩ := idx_facts0 t
  funext j
  refine R0_block _ _ _ _ _ _ _ _ t.val (by omega) ?_ ?_ ?_ ?_ j _ ?_ ?_
  · intro p k
    show V c main_call0_v26 (((cfg0.win 0).blk t).view.emb (ix2 p k)) = _
    congr 1
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro p
    show V c main_call0_v14 (((cfg0.win 1).blk t).view.emb (ix2 p (0 : Fin 1))) = _
    congr 1
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · funext y
    show V c main_arg3 (((cfg0.win 2).blk t).view.emb y) = V c main_arg3 y
    congr 1
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_call0_v27 (((cfg0.win 3).blk t).view.emb y) = V c main_call0_v27 y
    congr 1
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · show win0_4.index t (0 : Fin 2) * 5000 + 1 * (j 0).val = t.val * 5000 + (j 0).val; omega
  · show win0_4.index t (1 : Fin 2) * 128 + 1 * (j 1).val = (j 1).val; omega

/-- An index of the output is in point t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_call0_v28).slice (win0_4.rect t)).set ↔ _
  rw [View.set_slice_whole, Rect.mem_set_unit]
  exact Iff.rfl

/-- Every row of the output lies in the block of the point r / 5000. -/
theorem cover0 (i : S50000x128.Idx) : ∃ t : Fin cfg0.N, (cfg0.win 4).flush t = true ∧ i ∈ ((cfg0.win 4).blk t).view.set := by
  have hi0 : (i 0).val < 50000 := idx2_lt0 i
  have hi1 : (i 1).val < 128 := idx2_lt1 i
  refine ⟨⟨(i 0).val / 5000, by rw [show cfg0.N = 10 from N_0]; omega⟩, flush0_4 _, ?_⟩
  rw [mem_blk0]
  obtain ⟨-, -, -, -, -, -, -, -, e0, e1, -⟩ := idx_facts0 ⟨(i 0).val / 5000, by rw [show cfg0.N = 10 from N_0]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The first region's output array after the region. -/
theorem final0 (c : Dev nD) : (dat0 V c).arrAt 4 cfg0.N
    = R0 (V c main_call0_v26) (V c main_call0_v14) (V c main_arg3) (V c main_call0_v27) :=
  (dat0 V c).arrAt_eq_of_cover 4 _ (fun t _ => flushed0_eq V c t) cover0

end Region0

/-! ## The second region -/

/-- The second region's output at row r, lane q: Σ_k (H (r,k) · d (r,0)) · W (k,q). -/
def R1e (H : S50000x128.Idx → EReal) (d : S50000x1.Idx → EReal) (W : S128x64.Idx → EReal) (r : Fin 50000) (q : Fin 64) : EReal :=
  ∑ k : Fin 128, (H (ix2 r k) * d (ix2 r (0 : Fin 1))) * W (ix2 k q)

/-- The second region's output array. -/
def R1 (H : S50000x128.Idx → EReal) (d : S50000x1.Idx → EReal) (W : S128x64.Idx → EReal) : S50000x64.Idx → EReal :=
  fun i => R1e H d W ⟨(i 0).val, idx2_lt0 i⟩ ⟨(i 1).val, idx2_lt1 i⟩

/-- One block of the second region. -/
theorem R1_block (H : S50000x128.Idx → EReal) (d : S50000x1.Idx → EReal) (W : S128x64.Idx → EReal)
    (x0 : Vec Ideal S5000x128 .f32) (x1 : Vec Ideal S5000x1 .f32) (x2 : Vec Ideal S128x64 .f32)
    (T : Nat) (hT : T * 5000 + 5000 ≤ 50000)
    (h0 : ∀ (p : Fin 5000) (k : Fin 128), x0 (ix2 p k) = H (ix2 ⟨T * 5000 + p.val, by omega⟩ k))
    (h1 : ∀ (p : Fin 5000), x1 (ix2 p (0 : Fin 1)) = d (ix2 ⟨T * 5000 + p.val, by omega⟩ (0 : Fin 1)))
    (h2 : x2 = W)
    (y : S5000x64.Idx) (i : S50000x64.Idx) (hi0 : (i 0).val = T * 5000 + (y 0).val) (hi1 : (i 1).val = (y 1).val) :
    k1_pay1 (F := Ideal) x0 x1 x2 y = R1 H d W i := by
  obtain ⟨p, q, rfl⟩ : ∃ (p : Fin 5000) (q : Fin 64), y = ix2 p q := ⟨y 0, y 1, eq_ix2 y⟩
  rw [pay1_apply]
  unfold R1 R1e
  have e0 : (⟨(i 0).val, idx2_lt0 i⟩ : Fin 50000) = ⟨T * 5000 + p.val, by omega⟩ := Fin.ext hi0
  have e1 : (⟨(i 1).val, idx2_lt1 i⟩ : Fin 64) = q := Fin.ext hi1
  rw [e0, e1, h2, h1 p]
  exact Finset.sum_congr rfl fun k _ => by rw [h0 p k]

section Region1
variable (V : (c : Dev nD) → (b : Ref sig .tc) → Buf (Elt Ideal) ((c : Thread nD τ).loc b))

/-- The printed index maps of the second region over its grid. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- What point t of the second region writes back is block t of its output function. -/
theorem flushed1_eq (c : Dev nD) (t : Fin cfg1.N) :
    (dat1 V c).flushed 3 t = ((cfg1.win 3).blk t).view.read (Elt Ideal)
      (R1 (V c main_call0_v28) (V c main_call0_v14) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz,
    View.ld_unit_zero (S := S128x64) hz]
  obtain ⟨a0, a1, b0, b1, c0, c1, e0, e1, ht⟩ := idx_facts1 t
  funext j
  refine R1_block _ _ _ _ _ _ t.val (by omega) ?_ ?_ ?_ j _ ?_ ?_
  · intro p k
    show V c main_call0_v28 (((cfg1.win 0).blk t).view.emb (ix2 p k)) = _
    congr 1
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p
    show V c main_call0_v14 (((cfg1.win 1).blk t).view.emb (ix2 p (0 : Fin 1))) = _
    congr 1
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · funext y
    show V c main_arg5 (((cfg1.win 2).blk t).view.emb y) = V c main_arg5 y
    congr 1
    funext a; apply Fin.ext
    match a with
    | ⟨0, _⟩ => show win1_2.index t (0 : Fin 2) * 128 + 1 * (y 0).val = (y 0).val; omega
    | ⟨1, _⟩ => show win1_2.index t (1 : Fin 2) * 64 + 1 * (y 1).val = (y 1).val; omega
  · show win1_3.index t (0 : Fin 2) * 5000 + 1 * (j 0).val = t.val * 5000 + (j 0).val; omega
  · show win1_3.index t (1 : Fin 2) * 64 + 1 * (j 1).val = (j 1).val; omega

/-- Membership in a block of the second region's output. -/
theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_call0_v29).slice (win1_3.rect t)).set ↔ _
  rw [View.set_slice_whole, Rect.mem_set_unit]
  exact Iff.rfl

/-- Every row of the second region's output lies in the block of the point r / 5000. -/
theorem cover1 (i : S50000x64.Idx) : ∃ t : Fin cfg1.N, (cfg1.win 3).flush t = true ∧ i ∈ ((cfg1.win 3).blk t).view.set := by
  have hi0 : (i 0).val < 50000 := idx2_lt0 i
  have hi1 : (i 1).val < 64 := idx2_lt1 i
  refine ⟨⟨(i 0).val / 5000, by rw [show cfg1.N = 10 from N_1]; omega⟩, flush1_3 _, ?_⟩
  rw [mem_blk1]
  obtain ⟨-, -, -, -, -, -, e0, e1, -⟩ := idx_facts1 ⟨(i 0).val / 5000, by rw [show cfg1.N = 10 from N_1]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e1]; omega

/-- The second region's output array after the region. -/
theorem final1 (c : Dev nD) : (dat1 V c).arrAt 3 cfg1.N
    = R1 (V c main_call0_v28) (V c main_call0_v14) (V c main_arg5) :=
  (dat1 V c).arrAt_eq_of_cover 3 _ (fun t _ => flushed1_eq V c t) cover1

end Region1

end Cert.KernelIdeal.KVal

end
-- ==== Proof.KernelTerms.lean ====
/-
  The host computations around the two kernel regions, as functions of arrays.

  From the edge array E: the two endpoint arrays (sources, destinations, each followed by one self-loop per node), the
  degree-normalisation column dinv = 1 / sqrt (max (in-degree) 1), and the first aggregation (rows of X · dinv gathered at
  the sources and summed into the destinations).  After the regions: the projected rows gathered at the sources, summed
  into the destinations, scaled by dinv, plus the bias.
-/
import proofs.«121720_j3246995276080_2_alg».proof.KernelIdeal
import proofs.«121720_j3246995276080_2_alg».proof.Proof.Gen.KernelIdeal
import Idealize.ShloMosaic.PureOps.Ideal

noncomputable section

namespace Cert.KernelIdeal.KHost

open Cert.KernelIdeal Cert.KernelIdeal.Gen Idealize.ShloMosaic Idealize.ShloMosaic.TcCoe

/-! ## The host stretches as functions -/

/-- Edge sources followed by the self-loops. -/
def srcK (E : IVec S2x800000 32) : IVec S850000 32 :=
  concatenate S850000 0 [⟨S800000, shapeCast S800000 (extractStridedSlice S1x800000 ![0, 0] E slices_S2x800000_S1x800000_0_0) shapeCasts_S1x800000_S800000⟩,
    ⟨S50000, iotaInDim S50000 32 0⟩] concatenates_S800000_S50000_S850000_d0

/-- Edge destinations followed by the self-loops. -/
def dstK (E : IVec S2x800000 32) : IVec S850000 32 :=
  concatenate S850000 0 [⟨S800000, shapeCast S800000 (extractStridedSlice S1x800000 ![1, 0] E slices_S2x800000_S1x800000_1_0) shapeCasts_S1x800000_S800000⟩,
    ⟨S50000, iotaInDim S50000 32 0⟩] concatenates_S800000_S50000_S850000_d0

/-- The column 1 / sqrt (max (in-degree) 1). -/
def dinvK (dst : IVec S850000 32) : FVec Ideal S50000x1 .f32 :=
  shapeCast S50000x1 (Host.rsqrt (maximumf
    (Host.scatterAdd scatter_S50000_S850000x1_S850000_n_0_0_1 (broadcastInDim S50000 ![] bcast_S_S50000 (constant (F := Ideal) S_ .f32 0x00000000#32))
      (broadcastInDim S850000x1 ![0] bcast_S850000_S850000x1_0 dst) (broadcastInDim S850000 ![] bcast_S_S850000 (constant (F := Ideal) S_ .f32 0x3F800000#32)))
    (broadcastInDim S50000 ![] bcast_S_S50000 (constant (F := Ideal) S_ .f32 0x3F800000#32)))) shapeCasts_S50000_S50000x1

/-- The gather's column of row numbers: a negative word is shifted up by the number of nodes. -/
def wrapK (a : IVec S850000 32) : IVec S850000x1 32 :=
  broadcastInDim S850000x1 ![0] bcast_S850000_S850000x1_0
    (select (cmpi .slt a (broadcastInDim S850000 ![] bcast_S_S850000 (constantI S_ 32 0#32)))
      (addi a (broadcastInDim S850000 ![] bcast_S_S850000 (constantI S_ 32 50000#32))) a)

/-- The first aggregation: rows of X · dinv gathered at the sources and summed into the destinations. -/
def agg0K (X : FVec Ideal S50000x128 .f32) (src dst : IVec S850000 32) (dinv : FVec Ideal S50000x1 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (Host.gather gather_S50000x128_S850000x1_S850000x128_1_0_n_n_0_1_1128
      (mulf X (broadcastInDim S50000x128 ![0, 1] bcast_S50000x1_S50000x128_0_1 dinv)) (wrapK src))

/-- The bias as a one-row matrix. -/
def rowK (b : FVec Ideal S128 .f32) : FVec Ideal S1x128 .f32 := shapeCast S1x128 b shapeCasts_S128_S1x128

/-- After the second region: gather at the sources, sum into the destinations, scale by dinv, add the bias. -/
def tailK (P : FVec Ideal S50000x64 .f32) (src dst : IVec S850000 32) (dinv : FVec Ideal S50000x1 .f32)
    (b1 : FVec Ideal S64 .f32) : FVec Ideal S50000x64 .f32 :=
  addf (mulf
      (Host.scatterAdd scatter_S50000x64_S850000x1_S850000x64_1_0_0_1
        (broadcastInDim S50000x64 ![] bcast_S_S50000x64 (constant (F := Ideal) S_ .f32 0x00000000#32))
        (broadcastInDim S850000x1 ![0] bcast_S850000_S850000x1_0 dst)
        (Host.gather gather_S50000x64_S850000x1_S850000x64_1_0_n_n_0_1_164 P (wrapK src)))
      (broadcastInDim S50000x64 ![0, 1] bcast_S50000x1_S50000x64_0_1 dinv))
    (broadcastInDim S50000x64 ![0, 1] bcast_S1x64_S50000x64_0_1 (broadcastInDim S1x64 ![1] bcast_S64_S1x64_1 b1))

end Cert.KernelIdeal.KHost

end
-- ==== Proof.KernelStretch.lean ====
/-
  The two host stretches of the kernel program, read over any contents before them.

  The last stretch gathers the projected rows at the sources, sums them into the destinations, scales by the dinv
  column and adds the bias; the second half of the first stretch scales X by the dinv column, gathers at the sources and
  sums into the destinations.  Neither half writes the buffers it only reads.
-/
import proofs.«121720_j3246995276080_2_alg».proof.Proof.Gen.KernelIdeal.Launch
import proofs.«121720_j3246995276080_2_alg».proof.Proof.KernelBlocks
import proofs.«121720_j3246995276080_2_alg».proof.Proof.KernelTerms
import Idealize.ShloMosaic.Lib.StableHlo.Run

set_option maxRecDepth 16384

noncomputable section

namespace Cert.KernelIdeal.KHost

open Cert.KernelIdeal Cert.KernelIdeal.Gen Cert.KernelIdeal.KVal Idealize.ShloMosaic Idealize.ShloMosaic.TcCoe
open Idealize.ShloMosaic.ValueIdx Idealize.SL.Sem Idealize.ShloMosaic.StableHlo
open Idealize.ShloMosaic.Pipeline (Dat)

/-! ## Reading a host stretch

A buffer's contents after a stretch are computed by walking the stretch's operations.  The typed references of the
printed operations transport contents along equalities of types that hold by reflexivity; reading back through a
reference what was put through it is the identity. -/

/-- Reading back through a typed reference what was put there through it. -/
theorem ofBuf_toBuf {T : BufTy} (x : TRef sig T) (v : T.Contents (Elt Ideal)) : x.ofBuf (x.toBuf v) = v := by
  obtain ⟨r, h, h1, h2⟩ := x
  subst h
  rfl

/-- Folding a line of operations that is two lines end to end is folding the second after the first. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => simp only [List.cons_append, StableHlo.after_cons]; exact ih _

section Opaque
variable (WA : Valuation τ sig (Elt Ideal))

set_option maxHeartbeats 16000000 in
/-- The operations after the dinv column, read at the first aggregation, over any contents before them. -/
theorem rest_v26 :
    StableHlo.after ((hostOps0 (F := Ideal)).drop 18) WA (Proc.devRef .tc main_call0_v26)
      = agg0K (WA (Proc.devRef .tc main_arg2)) (WA (Proc.devRef .tc main_call0_v5)) (WA (Proc.devRef .tc main_call0_v6))
          (WA (Proc.devRef .tc main_call0_v14)) := by
  dsimp only [hostOps0, List.drop]
  after_results
  simp only [ofBuf_toBuf]
  unfold agg0K wrapK
  rfl

/-- None of those operations writes the source array, the destination array, the dinv column or X. -/
theorem keep_v5 : StableHlo.after ((hostOps0 (F := Ideal)).drop 18) WA (Proc.devRef .tc main_call0_v5) = WA (Proc.devRef .tc main_call0_v5) :=
  StableHlo.after_of_forall_not_mem (b := Proc.devRef .tc main_call0_v5) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep_v6 : StableHlo.after ((hostOps0 (F := Ideal)).drop 18) WA (Proc.devRef .tc main_call0_v6) = WA (Proc.devRef .tc main_call0_v6) :=
  StableHlo.after_of_forall_not_mem (b := Proc.devRef .tc main_call0_v6) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep_v14 : StableHlo.after ((hostOps0 (F := Ideal)).drop 18) WA (Proc.devRef .tc main_call0_v14) = WA (Proc.devRef .tc main_call0_v14) :=
  StableHlo.after_of_forall_not_mem (b := Proc.devRef .tc main_call0_v14) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep_arg2 : StableHlo.after ((hostOps0 (F := Ideal)).drop 18) WA (Proc.devRef .tc main_arg2) = WA (Proc.devRef .tc main_arg2) :=
  StableHlo.after_of_forall_not_mem (b := Proc.devRef .tc main_arg2) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The rank-one column 1 / sqrt (max (in-degree) 1), before it is laid out as [50000, 1]. -/
def dinv1K (dst : IVec S850000 32) : FVec Ideal S50000 .f32 :=
  Host.rsqrt (F := Ideal) (maximumf
    (Host.scatterAdd scatter_S50000_S850000x1_S850000_n_0_0_1 (broadcastInDim S50000 ![] bcast_S_S50000 (constant (F := Ideal) S_ .f32 0x00000000#32))
      (broadcastInDim S850000x1 ![0] bcast_S850000_S850000x1_0 dst) (broadcastInDim S850000 ![] bcast_S_S850000 (constant (F := Ideal) S_ .f32 0x3F800000#32)))
    (broadcastInDim S50000 ![] bcast_S_S50000 (constant (F := Ideal) S_ .f32 0x3F800000#32)))

/-- The dinv column is that rank-one column laid out as [50000, 1]. -/
theorem dinvK_eq (dst : IVec S850000 32) : dinvK dst = shapeCast S50000x1 (dinv1K dst) shapeCasts_S50000_S50000x1 := rfl

set_option maxHeartbeats 8000000 in
/-- The operations after the destination array, read at the rank-one dinv column, over any contents before them. -/
theorem mid_v13 :
    StableHlo.after ((hostOps0 (F := Ideal)).drop 7) WA (Proc.devRef .tc main_call0_v13)
      = dinv1K (WA (Proc.devRef .tc main_call0_v6)) := by
  dsimp only [hostOps0, List.drop]
  after_results
  simp only [ofBuf_toBuf]
  unfold dinv1K
  rfl

/-- The operations from the cast on, read at the dinv column, over any contents before them. -/
theorem last_v14 :
    StableHlo.after ((hostOps0 (F := Ideal)).drop 17) WA (Proc.devRef .tc main_call0_v14)
      = shapeCast S50000x1 (WA (Proc.devRef .tc main_call0_v13)) shapeCasts_S50000_S50000x1 := by
  dsimp only [hostOps0, List.drop]
  after_results
  rfl

/-- None of the operations after the destination array writes it. -/
theorem keep7_v6 : StableHlo.after ((hostOps0 (F := Ideal)).drop 7) WA (Proc.devRef .tc main_call0_v6) = WA (Proc.devRef .tc main_call0_v6) :=
  StableHlo.after_of_forall_not_mem (b := Proc.devRef .tc main_call0_v6) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- None of the operations from the cast on writes the rank-one column. -/
theorem keep17_v13 : StableHlo.after ((hostOps0 (F := Ideal)).drop 17) WA (Proc.devRef .tc main_call0_v13) = WA (Proc.devRef .tc main_call0_v13) :=
  StableHlo.after_of_forall_not_mem (b := Proc.devRef .tc main_call0_v13) _ _ (List.forall_iff_forall_mem.mp (by
    dsimp only [hostOps0, List.drop]
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 16000000 in
/-- The result buffer after the last stretch: the tail of the buffers it reads. -/
theorem tail_v0 : StableHlo.after hostOps2 WA (Proc.devRef .tc main_v0)
    = tailK (WA (Proc.devRef .tc main_call0_v29)) (WA (Proc.devRef .tc main_call0_v5))
        (WA (Proc.devRef .tc main_call0_v6)) (WA (Proc.devRef .tc main_call0_v14)) (WA (Proc.devRef .tc main_arg6)) := by
  dsimp only [hostOps2]
  after_results
  simp only [ofBuf_toBuf]
  unfold tailK wrapK
  rfl

end Opaque

end Cert.KernelIdeal.KHost

end
-- ==== Proof.KernelReads.lean ====
/-
  The first host stretch of the kernel program, read at the buffers it hands on directly: the two edge-endpoint arrays, the
  bias row, and the arguments it leaves alone.
-/
import proofs.«121720_j3246995276080_2_alg».proof.Proof.Gen.KernelIdeal.Frame
import proofs.«121720_j3246995276080_2_alg».proof.Proof.KernelTerms
import proofs.«121720_j3246995276080_2_alg».proof.Proof.KernelBlocks

set_option maxRecDepth 16384

noncomputable section

namespace Cert.KernelIdeal.KHost

open Cert.KernelIdeal Cert.KernelIdeal.Gen Cert.KernelIdeal.KVal Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The first stretch, read at the buffers the regions and the last stretch use -/

theorem W1_v5 (c : Dev nD) : W1 m ρ c (Proc.devRef .tc main_call0_v5) = srcK (m ((c.tc : Thread nD τ).loc main_arg1)) := by
  show StableHlo.after hostOps0 (W0 m ρ c) (Proc.devRef .tc main_call0_v5) = _
  dsimp only [hostOps0]
  after_results
  rfl

theorem W1_v6 (c : Dev nD) : W1 m ρ c (Proc.devRef .tc main_call0_v6) = dstK (m ((c.tc : Thread nD τ).loc main_arg1)) := by
  show StableHlo.after hostOps0 (W0 m ρ c) (Proc.devRef .tc main_call0_v6) = _
  dsimp only [hostOps0]
  after_results
  rfl

theorem W1_v27 (c : Dev nD) : W1 m ρ c (Proc.devRef .tc main_call0_v27) = rowK (m ((c.tc : Thread nD τ).loc main_arg4)) := by
  show StableHlo.after hostOps0 (W0 m ρ c) (Proc.devRef .tc main_call0_v27) = _
  dsimp only [hostOps0]
  after_results
  rfl

theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results

theorem W1_arg3 (c : Dev nD) : W1 m ρ c (Proc.devRef .tc main_arg3) = m ((c.tc : Thread nD τ).loc main_arg3) := by
  show StableHlo.after hostOps0 (W0 m ρ c) (Proc.devRef .tc main_arg3) = _
  dsimp only [hostOps0]
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  dsimp only [hostOps0]
  after_results

theorem W1_arg6 (c : Dev nD) : W1 m ρ c (Proc.devRef .tc main_arg6) = m ((c.tc : Thread nD τ).loc main_arg6) := by
  show StableHlo.after hostOps0 (W0 m ρ c) (Proc.devRef .tc main_arg6) = _
  dsimp only [hostOps0]
  after_results

end Cert.KernelIdeal.KHost

end
-- ==== Proof.KernelHost.lean ====
/-
  The idealized kernel's result as one term of its arguments.

  Before the first region the host computes, from the edge array E, the two endpoint arrays (sources, destinations, each
  followed by one self-loop per node), the degree-normalisation column dinv, and the first aggregation: the rows of
  X · dinv gathered at the sources and summed into the destinations.  The first region turns that into the hidden
  features H, the second into the projected rows P, and after it the host gathers P at the sources, sums into the
  destinations, scales by dinv and adds the bias.  The contents of every buffer at the four boundaries are a fold from
  the launch memory; walking the result buffer back through the fold names the result.
-/
import proofs.«121720_j3246995276080_2_alg».proof.Proof.KernelRun
import proofs.«121720_j3246995276080_2_alg».proof.Proof.KernelBlocks
import proofs.«121720_j3246995276080_2_alg».proof.Proof.KernelTerms
import proofs.«121720_j3246995276080_2_alg».proof.Proof.KernelStretch
import proofs.«121720_j3246995276080_2_alg».proof.Proof.KernelReads

set_option maxRecDepth 16384

noncomputable section

namespace Cert.KernelIdeal.KHost

open Cert.KernelIdeal Cert.KernelIdeal.Gen Cert.KernelIdeal.KVal Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The rank-one dinv column: the stretch is its first seven operations, which end with the destination array, followed by
    the rest, which computes the column from that array and does not write it. -/
theorem W1_v13 (c : Dev nD) : W1 m ρ c (Proc.devRef .tc main_call0_v13) = dinv1K (dstK (m ((c.tc : Thread nD τ).loc main_arg1))) := by
  have e := after_append ((hostOps0 (F := Ideal)).take 7) ((hostOps0 (F := Ideal)).drop 7) (W0 m ρ c)
  rw [List.take_append_drop] at e
  have hW : W1 m ρ c = StableHlo.after ((hostOps0 (F := Ideal)).drop 7) (StableHlo.after ((hostOps0 (F := Ideal)).take 7) (W0 m ρ c)) := e
  have k6 := W1_v6 m ρ c
  rw [hW] at k6 ⊢
  generalize StableHlo.after ((hostOps0 (F := Ideal)).take 7) (W0 m ρ c) = WA at k6 ⊢
  rw [keep7_v6] at k6
  rw [mid_v13, k6]

/-- The dinv column: the rank-one column laid out as [50000, 1] by the eighteenth operation; nothing after writes either. -/
theorem W1_v14 (c : Dev nD) : W1 m ρ c (Proc.devRef .tc main_call0_v14) = dinvK (dstK (m ((c.tc : Thread nD τ).loc main_arg1))) := by
  have e := after_append ((hostOps0 (F := Ideal)).take 17) ((hostOps0 (F := Ideal)).drop 17) (W0 m ρ c)
  rw [List.take_append_drop] at e
  have hW : W1 m ρ c = StableHlo.after ((hostOps0 (F := Ideal)).drop 17) (StableHlo.after ((hostOps0 (F := Ideal)).take 17) (W0 m ρ c)) := e
  have k13 := W1_v13 m ρ c
  rw [hW] at k13 ⊢
  generalize StableHlo.after ((hostOps0 (F := Ideal)).take 17) (W0 m ρ c) = WA at k13 ⊢
  rw [keep17_v13] at k13
  rw [last_v14, k13, dinvK_eq]

/-- The first aggregation: the stretch is its first eighteen operations followed by the rest; the rest reads the source
    array, the destination array, the dinv column and X where the first eighteen left them, and writes none of them. -/
theorem W1_v26 (c : Dev nD) : W1 m ρ c (Proc.devRef .tc main_call0_v26)
    = agg0K (m ((c.tc : Thread nD τ).loc main_arg2)) (srcK (m ((c.tc : Thread nD τ).loc main_arg1))) (dstK (m ((c.tc : Thread nD τ).loc main_arg1))) (dinvK (dstK (m ((c.tc : Thread nD τ).loc main_arg1)))) := by
  have e := after_append ((hostOps0 (F := Ideal)).take 18) ((hostOps0 (F := Ideal)).drop 18) (W0 m ρ c)
  rw [List.take_append_drop] at e
  have hW : W1 m ρ c = StableHlo.after ((hostOps0 (F := Ideal)).drop 18) (StableHlo.after ((hostOps0 (F := Ideal)).take 18) (W0 m ρ c)) := e
  have k5 := W1_v5 m ρ c
  have k6 := W1_v6 m ρ c
  have k14 := W1_v14 m ρ c
  have kX := W1_arg2 m ρ c
  rw [hW] at k5 k6 k14 kX ⊢
  generalize StableHlo.after ((hostOps0 (F := Ideal)).take 18) (W0 m ρ c) = WA at k5 k6 k14 kX ⊢
  rw [keep_v5] at k5
  rw [keep_v6] at k6
  rw [keep_v14] at k14
  rw [keep_arg2] at kX
  rw [rest_v26, k5, k6, k14, kX]

/-! ## The contents at the first region's entry, by name -/

theorem V1_v26 (c : Dev nD) : V1 m ρ c main_call0_v26
    = agg0K (m ((c.tc : Thread nD τ).loc main_arg2)) (srcK (m ((c.tc : Thread nD τ).loc main_arg1)))
        (dstK (m ((c.tc : Thread nD τ).loc main_arg1))) (dinvK (dstK (m ((c.tc : Thread nD τ).loc main_arg1)))) := W1_v26 m ρ c
theorem V1_v14 (c : Dev nD) : V1 m ρ c main_call0_v14 = dinvK (dstK (m ((c.tc : Thread nD τ).loc main_arg1))) := W1_v14 m ρ c
theorem V1_v27 (c : Dev nD) : V1 m ρ c main_call0_v27 = rowK (m ((c.tc : Thread nD τ).loc main_arg4)) := W1_v27 m ρ c
theorem V1_arg3 (c : Dev nD) : V1 m ρ c main_arg3 = m ((c.tc : Thread nD τ).loc main_arg3) := W1_arg3 m ρ c

/-! ## The contents at the second region's entry -/

/-- The first region's output array, as the second region finds it. -/
theorem V2_v28 (c : Dev nD) : V2 m ρ c main_call0_v28
    = R0 (V1 m ρ c main_call0_v26) (V1 m ρ c main_call0_v14) (V1 m ρ c main_arg3) (V1 m ρ c main_call0_v27) :=
  (W2_arr m ρ c 4).trans (final0 (V1 m ρ) c)

/-- The first region only reads the dinv column. -/
theorem V2_v14 (c : Dev nD) : V2 m ρ c main_call0_v14 = V1 m ρ c main_call0_v14 :=
  (W2_arr m ρ c 1).trans (((dat0 (V1 m ρ) c).arrAt_in 1 rfl _).trans (A_eq0 (V1 m ρ) c 1))

theorem V2_arg5 (c : Dev nD) : V2 m ρ c main_arg5 = m ((c.tc : Thread nD τ).loc main_arg5) :=
  (W2_of_ne m ρ c main_arg5 (by decide)).trans (W1_arg5 m ρ c)

/-! ## The contents at the last stretch's entry -/

/-- The second region's output array. -/
theorem W3_v29 (c : Dev nD) : W3 m ρ c (Proc.devRef .tc main_call0_v29)
    = R1 (V2 m ρ c main_call0_v28) (V2 m ρ c main_call0_v14) (V2 m ρ c main_arg5) :=
  (W3_arr m ρ c 3).trans (final1 (V2 m ρ) c)

theorem W3_v14 (c : Dev nD) : W3 m ρ c (Proc.devRef .tc main_call0_v14) = V2 m ρ c main_call0_v14 :=
  (W3_arr m ρ c 1).trans (((dat1 (V2 m ρ) c).arrAt_in 1 rfl _).trans (A_eq1 (V2 m ρ) c 1))

theorem W3_v5 (c : Dev nD) : W3 m ρ c (Proc.devRef .tc main_call0_v5) = srcK (m ((c.tc : Thread nD τ).loc main_arg1)) :=
  (W3_of_ne m ρ c main_call0_v5 (by decide)).trans ((W2_of_ne m ρ c main_call0_v5 (by decide)).trans (W1_v5 m ρ c))

theorem W3_v6 (c : Dev nD) : W3 m ρ c (Proc.devRef .tc main_call0_v6) = dstK (m ((c.tc : Thread nD τ).loc main_arg1)) :=
  (W3_of_ne m ρ c main_call0_v6 (by decide)).trans ((W2_of_ne m ρ c main_call0_v6 (by decide)).trans (W1_v6 m ρ c))

theorem W3_arg6 (c : Dev nD) : W3 m ρ c (Proc.devRef .tc main_arg6) = m ((c.tc : Thread nD τ).loc main_arg6) :=
  (W3_of_ne m ρ c main_arg6 (by decide)).trans ((W2_of_ne m ρ c main_arg6 (by decide)).trans (W1_arg6 m ρ c))

/-! ## The result -/

/-- The result buffer after the last stretch: the tail of the buffers it reads. -/
theorem W4_v0 (c : Dev nD) : W4 m ρ c (Proc.devRef .tc main_v0)
    = tailK (W3 m ρ c (Proc.devRef .tc main_call0_v29)) (W3 m ρ c (Proc.devRef .tc main_call0_v5))
        (W3 m ρ c (Proc.devRef .tc main_call0_v6)) (W3 m ρ c (Proc.devRef .tc main_call0_v14))
        (W3 m ρ c (Proc.devRef .tc main_arg6)) :=
  tail_v0 (W3 m ρ c)

/-- The kernel program's result as one term of its six array arguments. -/
def outK (E : IVec S2x800000 32) (X : FVec Ideal S50000x128 .f32) (W0 : FVec Ideal S128x128 .f32) (b0 : FVec Ideal S128 .f32)
    (W1 : FVec Ideal S128x64 .f32) (b1 : FVec Ideal S64 .f32) : FVec Ideal S50000x64 .f32 :=
  tailK (R1 (R0 (agg0K X (srcK E) (dstK E) (dinvK (dstK E))) (dinvK (dstK E)) W0 (rowK b0)) (dinvK (dstK E)) W1)
    (srcK E) (dstK E) (dinvK (dstK E)) b1

/-- The result buffer after the run is that term of the launch contents of the arguments. -/
theorem W4_v0_eq (c : Dev nD) : W4 m ρ c (Proc.devRef .tc main_v0)
    = outK (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  rw [W4_v0, W3_v29, W3_v5, W3_v6, W3_v14, W3_arg6, V2_v28, V2_v14, V2_arg5, V1_v26, V1_v14, V1_v27, V1_arg3]
  rfl

/-- The run of the idealized kernel with its result at that term. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
        = outK (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v0_eq m ρ c), (h c).2⟩) (Cert.KernelIdeal.KRun.run_named m ρ)

end Cert.KernelIdeal.KHost

end
-- ==== Proof.Spec.lean ====
/-
  The two computations of a two-layer graph convolution, entry by entry, over the extended reals.

  A graph has 50000 nodes and 850000 directed edges (800000 given ones followed by one self-loop per node); edge e
  goes from the node named by the word src e to the node named by the word dst e.  A word names a node in two ways:
  * as a DESTINATION it is read as a signed integer and must be one of 0 .. 49999, otherwise the edge contributes
    nothing ("into v" is the set of edges whose destination word reads exactly v);
  * as a SOURCE row (a table lookup) a negative word is first shifted up by 50000 and the result is clamped into
    0 .. 49999 ("rowOf").
  deg v counts the edges into v, and dinv v = 1 / sqrt (max (deg v) 1).

  One side (k…) scales the features by dinv at the source BEFORE summing over the edges, scales the sum by dinv at
  the destination afterwards, and in the second layer multiplies by the weight matrix before summing over the edges.
  The other side (r…) multiplies each edge's message by dinv(source) · dinv(destination) and multiplies the summed
  messages by the weight matrix afterwards.
-/
import Idealize.ShloMosaic.Lib.ValueIdx
import Idealize.ShloMosaic.PureOps.Ideal

noncomputable section

open scoped BigOperators

namespace Cert.Spec

open Idealize.ShloMosaic Idealize.ShloMosaic.ValueIdx

/-- The float word of zero, as an extended real. -/
abbrev zeroW : EReal := Ideal.ofBits .f32 0x00000000#32
/-- The float word of one, as an extended real. -/
abbrev oneW : EReal := Ideal.ofBits .f32 0x3F800000#32

/-- A negative word is shifted up by the number of nodes. -/
def wrapW (s : BitVec 32) : BitVec 32 := Scalar.select (Scalar.cmpi .slt s 0#32) (Scalar.addi s 50000#32) s

/-- The table row a word names: shifted if negative, then clamped into the table. -/
def rowOf (s : BitVec 32) : Fin 50000 := ⟨min (wrapW s).toInt.toNat (50000 - 1), by omega⟩

section
variable (src dst : (⟨1, ![850000]⟩ : Shape).Idx → BitVec 32)

/-- The edges whose destination word reads exactly v. -/
def into (v : Fin 50000) : Finset (Fin 850000) :=
  Finset.univ.filter fun e : Fin 850000 => (dst (ix1 e)).toInt = (v.val : Int)

/-- The number of edges into v (a sum of ones). -/
def deg (v : Fin 50000) : EReal := zeroW + ∑ _e ∈ into dst v, oneW

/-- 1 / sqrt (max (deg v) 1). -/
def dinv (v : Fin 50000) : EReal := Ideal.rsqrt (max (deg dst v) oneW)

variable (X : (⟨2, ![50000, 128]⟩ : Shape).Idx → EReal) (W0 : (⟨2, ![128, 128]⟩ : Shape).Idx → EReal)
  (b0 : (⟨1, ![128]⟩ : Shape).Idx → EReal) (W1 : (⟨2, ![128, 64]⟩ : Shape).Idx → EReal)
  (b1 : (⟨1, ![64]⟩ : Shape).Idx → EReal)

/-! ### Scaling outside the edge sums, projecting before the second edge sum -/

/-- First layer: the source-scaled features summed over the edges into v. -/
def kAgg0 (v : Fin 50000) (k : Fin 128) : EReal :=
  zeroW + ∑ e ∈ into dst v, X (ix2 (rowOf (src (ix1 e))) k) * dinv dst (rowOf (src (ix1 e)))

/-- First layer's output: destination scaling, the weight matrix, the bias, and the positive part. -/
def kH (v : Fin 50000) (j : Fin 128) : EReal :=
  max ((∑ k : Fin 128, (kAgg0 src dst X v k * dinv dst v) * W0 (ix2 k j)) + b0 (ix1 j)) zeroW

/-- Second layer: source scaling and the weight matrix, node by node. -/
def kP (v : Fin 50000) (j : Fin 64) : EReal :=
  ∑ k : Fin 128, (kH src dst X W0 b0 v k * dinv dst v) * W1 (ix2 k j)

/-- Second layer: the projected rows summed over the edges into v. -/
def kAgg1 (v : Fin 50000) (j : Fin 64) : EReal :=
  zeroW + ∑ e ∈ into dst v, kP src dst X W0 b0 W1 (rowOf (src (ix1 e))) j

/-- Second layer's output: destination scaling and the bias. -/
def kOut (v : Fin 50000) (j : Fin 64) : EReal :=
  kAgg1 src dst X W0 b0 W1 v j * dinv dst v + b1 (ix1 j)

/-! ### Scaling each edge's message, projecting after the edge sum -/

/-- An edge's weight: dinv at its source row times dinv at its destination row. -/
def rNorm (e : Fin 850000) : EReal :=
  dinv dst (rowOf (src (ix1 e))) * dinv dst (rowOf (dst (ix1 e)))

/-- The weighted messages summed over the edges into v, for node features Y. -/
def rAgg (Y : Fin 50000 → Fin 128 → EReal) (v : Fin 50000) (k : Fin 128) : EReal :=
  zeroW + ∑ e ∈ into dst v, Y (rowOf (src (ix1 e))) k * rNorm src dst e

/-- First layer's output. -/
def rH (v : Fin 50000) (j : Fin 128) : EReal :=
  max ((∑ k : Fin 128, rAgg src dst (fun u k' => X (ix2 u k')) v k * W0 (ix2 k j)) + b0 (ix1 j)) zeroW

/-- Second layer's output. -/
def rOut (v : Fin 50000) (j : Fin 64) : EReal :=
  (∑ k : Fin 128, rAgg src dst (rH src dst X W0 b0) v k * W1 (ix2 k j)) + b1 (ix1 j)

end

end Cert.Spec

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.KernelIsSpec.lean ====
/-
  The host computations around the two kernel regions, read entry by entry, are the first of the two computations
  of the graph convolution: the column dinv is 1 / sqrt (max (in-degree) 1) node by node, the gathers read the row a
  source word names, the accumulating scatters sum over the edges whose destination word reads the node, and the
  two regions are the two dense layers.
-/
import proofs.«121720_j3246995276080_2_alg».proof.Proof.KernelTerms
import proofs.«121720_j3246995276080_2_alg».proof.Proof.KernelBlocks
import proofs.«121720_j3246995276080_2_alg».proof.Proof.Spec
import proofs.«121720_j3246995276080_2_alg».proof.Proof.LibEdgeIndex
import proofs.«121720_j3246995276080_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384
set_option Elab.async false

noncomputable section

open scoped BigOperators

namespace Cert.KernelSpec

open Cert.KernelIdeal Cert.KernelIdeal.Gen Cert.KernelIdeal.KHost Cert.KernelIdeal.KVal
open Idealize.ShloMosaic Idealize.ShloMosaic.ValueIdx

/-! ## Layout readings -/

section Layout
variable {α : Type}

/-- A vector of M entries laid out as an [M, 1] column reads its entry at the row. -/
theorem column_apply (h : S850000.BroadcastsInDim S850000x1 (![0] : Fin 1 → Fin S850000x1.rank))
    (a : S850000.Idx → α) (e : Fin 850000) (u : Fin 1) :
    broadcastInDim S850000x1 ![0] h a (ix2 e u) = a (ix1 e) :=
  broadcastInDim_apply _ h a (ix2 e u) (ix1 e) (fun ax => match ax with
    | ⟨0, _⟩ => by show e.val = if (850000 : Nat) = 1 then 0 else e.val; rw [if_neg (by decide)])

/-- A [50000, 1] column spread over D lanes reads, at (u, k), its entry at row u. -/
theorem spread_apply {D : Nat}
    (h : S50000x1.BroadcastsInDim (⟨2, ![50000, D]⟩ : Shape) (![0, 1] : Fin 2 → Fin 2))
    (d : S50000x1.Idx → α) (u : Fin 50000) (k : Fin D) :
    broadcastInDim (⟨2, ![50000, D]⟩ : Shape) ![0, 1] h d (ix2 u k) = d (ix2 u (0 : Fin 1)) :=
  broadcastInDim_apply _ h d (ix2 u k) (ix2 u (0 : Fin 1)) (fun ax => match ax with
    | ⟨0, _⟩ => by show u.val = if (50000 : Nat) = 1 then 0 else u.val; rw [if_neg (by decide)]
    | ⟨1, _⟩ => by show 0 = if (1 : Nat) = 1 then 0 else k.val; rw [if_pos rfl])

/-- A vector of 64 entries spread over the rows reads, at (v, j), its entry j. -/
theorem bias_apply (h1 : S1x64.BroadcastsInDim S50000x64 (![0, 1] : Fin 2 → Fin S50000x64.rank))
    (h2 : S64.BroadcastsInDim S1x64 (![1] : Fin 1 → Fin S1x64.rank))
    (b : S64.Idx → α) (v : Fin 50000) (j : Fin 64) :
    broadcastInDim S50000x64 ![0, 1] h1 (broadcastInDim S1x64 ![1] h2 b) (ix2 v j) = b (ix1 j) := by
  rw [broadcastInDim_apply _ h1 _ (ix2 v j) (ix2 (0 : Fin 1) j) (fun ax => match ax with
    | ⟨0, _⟩ => by show 0 = if (1 : Nat) = 1 then 0 else v.val; rw [if_pos rfl]
    | ⟨1, _⟩ => by show j.val = if (64 : Nat) = 1 then 0 else j.val; rw [if_neg (by decide)])]
  exact broadcastInDim_apply _ h2 b (ix2 (0 : Fin 1) j) (ix1 j) (fun ax => match ax with
    | ⟨0, _⟩ => by show j.val = if (64 : Nat) = 1 then 0 else j.val; rw [if_neg (by decide)])

end Layout

/-- A float word spread over an array reads the extended real it denotes. -/
theorem splat_apply {s : Shape} (h : S_.BroadcastsInDim s (![] : Fin 0 → Fin s.rank)) (w : BitVec 32) (i : s.Idx) :
    broadcastInDim s ![] h (constant (F := Ideal) S_ .f32 w) i = Ideal.ofBits .f32 w := rfl

/-- The accumulating scatter at the extended reals is the exact sum. -/
theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The reciprocal square root of an array, read at an index. -/
theorem rsqrt_apply {s : Shape} (x : FVec Ideal s .f32) (i : s.Idx) : Host.rsqrt x i = Ideal.rsqrt (x i) := rfl

/-- The shifted word of an array of words, read at an index. -/
theorem wrap_apply {s : Shape} (h : S_.BroadcastsInDim s (![] : Fin 0 → Fin s.rank)) (a : IVec s 32) (i : s.Idx) :
    select (cmpi .slt a (broadcastInDim s ![] h (constantI S_ 32 0#32)))
      (addi a (broadcastInDim s ![] h (constantI S_ 32 50000#32))) a i = Cert.Spec.wrapW (a i) := rfl

/-! ## The dimension records are the row and vector patterns -/

theorem scatter_vec_eq : scatter_S50000_S850000x1_S850000_n_0_0_1
    = EdgeIndex.vecScatterDims 50000 850000 scatter_S50000_S850000x1_S850000_n_0_0_1_wf := rfl
theorem scatter_row128_eq : scatter_S50000x128_S850000x1_S850000x128_1_0_0_1
    = EdgeIndex.rowScatterDims 50000 850000 128 scatter_S50000x128_S850000x1_S850000x128_1_0_0_1_wf := rfl
theorem scatter_row64_eq : scatter_S50000x64_S850000x1_S850000x64_1_0_0_1
    = EdgeIndex.rowScatterDims 50000 850000 64 scatter_S50000x64_S850000x1_S850000x64_1_0_0_1_wf := rfl
theorem gather_row128_eq : gather_S50000x128_S850000x1_S850000x128_1_0_n_n_0_1_1128
    = EdgeIndex.rowGatherDims 50000 850000 128 gather_S50000x128_S850000x1_S850000x128_1_0_n_n_0_1_1128_wf := rfl
theorem gather_row64_eq : gather_S50000x64_S850000x1_S850000x64_1_0_n_n_0_1_164
    = EdgeIndex.rowGatherDims 50000 850000 64 gather_S50000x64_S850000x1_S850000x64_1_0_n_n_0_1_164_wf := rfl

/-- A region's output array read at (v, j). -/
theorem R0_ix2 (A : S50000x128.Idx → EReal) (d : S50000x1.Idx → EReal) (W : S128x128.Idx → EReal) (b : S1x128.Idx → EReal)
    (v : Fin 50000) (j : Fin 128) : R0 A d W b (ix2 v j) = R0e A d W b v j := rfl
theorem R1_ix2 (H : S50000x128.Idx → EReal) (d : S50000x1.Idx → EReal) (W : S128x64.Idx → EReal)
    (v : Fin 50000) (j : Fin 64) : R1 H d W (ix2 v j) = R1e H d W v j := rfl

/-! ## Edge words -/

/-- The column of row numbers reads, at edge e, the shifted word. -/
theorem wrapK_apply (a : IVec S850000 32) (e : Fin 850000) (u : Fin 1) :
    wrapK a (ix2 e u) = Cert.Spec.wrapW (a (ix1 e)) := by
  unfold wrapK
  rw [column_apply, wrap_apply]

/-- The edges a column of destination words sends to node v. -/
theorem filter_eq_into (dst : IVec S850000 32) (idx : IVec S850000x1 32)
    (hidx : ∀ e : Fin 850000, idx (ix2 e (0 : Fin 1)) = dst (ix1 e)) (v : Fin 50000) :
    Finset.univ.filter (fun e : Fin 850000 => (idx (ix2 e 0)).toInt = (v.val : Int)) = Cert.Spec.into dst v := by
  unfold Cert.Spec.into
  exact Finset.filter_congr (fun e _ => by rw [hidx e])

/-- A row gather through the column of shifted source words reads the row the word names. -/
theorem gather_rows {D : Nat}
    (wf : GatherDims.WF ⟨2, ![50000, D]⟩ ⟨2, ![850000, 1]⟩ ⟨2, ![850000, D]⟩ [1] [0] [] [0] [] 1 ![1, D])
    (Y : (⟨2, ![50000, D]⟩ : Shape).Idx → EReal) (src : IVec S850000 32) (e : Fin 850000) (k : Fin D) :
    Host.gather (EdgeIndex.rowGatherDims 50000 850000 D wf) Y (wrapK src) (ix2 e k)
      = Y (ix2 (Cert.Spec.rowOf (src (ix1 e))) k) := by
  rw [EdgeIndex.gather_row_apply (by decide : 0 < 50000)]
  refine congrArg Y ?_
  refine congrArg (fun r : Fin 50000 => ix2 r k) ?_
  refine Fin.ext ?_
  show min ((wrapK src (ix2 e 0)).toInt.toNat) (50000 - 1) = min (Cert.Spec.wrapW (src (ix1 e))).toInt.toNat (50000 - 1)
  rw [wrapK_apply]

/-- An accumulating row scatter through the column of destination words sums over the edges into the node. -/
theorem scatter_rows {D : Nat}
    (wf : ScatterDims.WF ⟨2, ![50000, D]⟩ ⟨2, ![850000, 1]⟩ ⟨2, ![850000, D]⟩ [1] [0] [0] 1)
    (h : S850000.BroadcastsInDim S850000x1 (![0] : Fin 1 → Fin S850000x1.rank))
    (x : (⟨2, ![50000, D]⟩ : Shape).Idx → EReal) (dst : IVec S850000 32)
    (upd : (⟨2, ![850000, D]⟩ : Shape).Idx → EReal) (v : Fin 50000) (k : Fin D) :
    Ideal.hostScatterAdd (EdgeIndex.rowScatterDims 50000 850000 D wf) x (broadcastInDim S850000x1 ![0] h dst) upd (ix2 v k)
      = x (ix2 v k) + ∑ e ∈ Cert.Spec.into dst v, upd (ix2 e k) := by
  rw [EdgeIndex.scatterAdd_row_apply, filter_eq_into dst _ (fun e => column_apply h dst e 0)]

/-! ## The degree normalisation -/

theorem dinvK_apply (dst : IVec S850000 32) (v : Fin 50000) (u : Fin 1) :
    dinvK dst (ix2 v u) = Cert.Spec.dinv dst v := by
  unfold dinvK Cert.Spec.dinv Cert.Spec.deg
  rw [shapeCast_a_a1_apply, rsqrt_apply, maximumf_apply, scatterAdd_eq, scatter_vec_eq,
    EdgeIndex.scatterAdd_vec_apply, filter_eq_into dst _ (fun e => column_apply bcast_S850000_S850000x1_0 dst e 0),
    splat_apply, splat_apply,
    Finset.sum_congr rfl (fun (e : Fin 850000) _ => splat_apply bcast_S_S850000 0x3F800000#32 (ix1 e))]

/-! ## The first aggregation -/

theorem agg0K_apply (X : FVec Ideal S50000x128 .f32) (src dst : IVec S850000 32) (v : Fin 50000) (k : Fin 128) :
    agg0K X src dst (dinvK dst) (ix2 v k) = Cert.Spec.kAgg0 src dst X v k := by
  unfold agg0K Cert.Spec.kAgg0
  rw [scatterAdd_eq, scatter_row128_eq, gather_row128_eq, scatter_rows, splat_apply]
  refine congrArg (fun t => Cert.Spec.zeroW + t) (Finset.sum_congr rfl fun e _ => ?_)
  rw [gather_rows, mulf_apply, spread_apply, dinvK_apply]

/-! ## The two regions -/

theorem rowK_apply (b : FVec Ideal S128 .f32) (u : Fin 1) (j : Fin 128) : rowK b (ix2 u j) = b (ix1 j) := by
  unfold rowK
  exact shapeCast_a_1a_apply b _ u j

theorem R0_apply (X : FVec Ideal S50000x128 .f32) (src dst : IVec S850000 32) (W0 : FVec Ideal S128x128 .f32)
    (b0 : FVec Ideal S128 .f32) (v : Fin 50000) (j : Fin 128) :
    R0 (agg0K X src dst (dinvK dst)) (dinvK dst) W0 (rowK b0) (ix2 v j) = Cert.Spec.kH src dst X W0 b0 v j := by
  rw [R0_ix2]
  unfold R0e Cert.Spec.kH
  simp only [agg0K_apply, dinvK_apply, rowK_apply]

theorem R1_apply (X : FVec Ideal S50000x128 .f32) (src dst : IVec S850000 32) (W0 : FVec Ideal S128x128 .f32)
    (b0 : FVec Ideal S128 .f32) (W1 : FVec Ideal S128x64 .f32) (v : Fin 50000) (j : Fin 64) :
    R1 (R0 (agg0K X src dst (dinvK dst)) (dinvK dst) W0 (rowK b0)) (dinvK dst) W1 (ix2 v j)
      = Cert.Spec.kP src dst X W0 b0 W1 v j := by
  rw [R1_ix2]
  unfold R1e Cert.Spec.kP
  simp only [R0_apply, dinvK_apply]

/-! ## The whole kernel side -/

theorem kernel_is_spec (src dst : IVec S850000 32) (X : FVec Ideal S50000x128 .f32) (W0 : FVec Ideal S128x128 .f32)
    (b0 : FVec Ideal S128 .f32) (W1 : FVec Ideal S128x64 .f32) (b1 : FVec Ideal S64 .f32) (v : Fin 50000) (j : Fin 64) :
    tailK (R1 (R0 (agg0K X src dst (dinvK dst)) (dinvK dst) W0 (rowK b0)) (dinvK dst) W1) src dst (dinvK dst) b1 (ix2 v j)
      = Cert.Spec.kOut src dst X W0 b0 W1 b1 v j := by
  unfold tailK Cert.Spec.kOut Cert.Spec.kAgg1
  rw [addf_apply, mulf_apply, bias_apply, spread_apply, dinvK_apply]
  refine congrArg (fun t => t * Cert.Spec.dinv dst v + b1 (ix1 j)) ?_
  rw [scatterAdd_eq, scatter_row64_eq, gather_row64_eq, scatter_rows, splat_apply]
  refine congrArg (fun t => Cert.Spec.zeroW + t) (Finset.sum_congr rfl fun e _ => ?_)
  rw [gather_rows, R1_apply]

end Cert.KernelSpec

end
-- ==== Proof.RefIsSpec.lean ====
/-
  The reference program's result, read entry by entry, is the computation Spec.rOut.

  The program builds the 850000 edges' source and destination words, counts the edges into each node by an
  accumulating scatter of ones, takes dinv = 1 / sqrt (max count 1), gives each edge the weight
  dinv(source row) * dinv(destination row), gathers the source rows of the node features, scales each gathered row by
  the edge's weight, sums the rows into their destination nodes by an accumulating scatter, and multiplies the sums by
  the layer's weight matrix, adding the bias (and, after the first layer, taking the positive part). It does all of this
  twice, once per layer, recomputing the edge words and the weights for the second layer by the same operations of the
  same input: those repeated arrays are the first layer's, definitionally.

  Each step below reads one operation at an index. The row gathers and the accumulating scatters are read through the
  lemmas of LibEdgeIndex; the elementwise and layout operations through the generated module's lemmas.
-/
import proofs.«121720_j3246995276080_2_alg».proof.Proof.Gen.ReferenceIdeal.Read
import proofs.«121720_j3246995276080_2_alg».proof.Proof.Spec
import proofs.«121720_j3246995276080_2_alg».proof.Proof.LibEdgeIndex

noncomputable section

open scoped BigOperators

namespace Cert.RefSpec

open Cert.ReferenceIdeal Cert.ReferenceIdeal.Gen Cert.ReferenceIdeal.Read Idealize.ShloMosaic Idealize.ShloMosaic.ValueIdx
  Idealize.ShloMosaic.EdgeIndex Idealize.SL.Sem Idealize.ShloMosaic.StableHlo

variable (x1 : (⟨S2x800000, .i32⟩ : BufTy).Contents (Elt Ideal))

/-! ## The gathers and the accumulating scatters of this program, read at an index

The program's dimension records are the ones LibEdgeIndex reads, field by field. -/

theorem vecScatter_eq : scatter_S50000_S850000x1_S850000_n_0_0_1
    = vecScatterDims 50000 850000 scatter_S50000_S850000x1_S850000_n_0_0_1_wf := rfl
theorem rowScatter_eq : scatter_S50000x128_S850000x1_S850000x128_1_0_0_1
    = rowScatterDims 50000 850000 128 scatter_S50000x128_S850000x1_S850000x128_1_0_0_1_wf := rfl
theorem vecGather_eq : gather_S50000_S850000x1_S850000_n_0_n_n_0_1_1
    = vecGatherDims 50000 850000 gather_S50000_S850000x1_S850000_n_0_n_n_0_1_1_wf := rfl
theorem rowGather_eq : gather_S50000x128_S850000x1_S850000x128_1_0_n_n_0_1_1128
    = rowGatherDims 50000 850000 128 gather_S50000x128_S850000x1_S850000x128_1_0_n_n_0_1_1128_wf := rfl

/-- Entry v of the accumulated vector: the old entry plus the updates of the positions whose word reads v. -/
theorem scatterVec_core (x : FVec Ideal S50000 .f32) (idx : IVec S850000x1 32) (upd : FVec Ideal S850000 .f32) (v : Fin 50000) :
    Host.scatterAdd scatter_S50000_S850000x1_S850000_n_0_0_1 x idx upd (ix1 v)
      = x (ix1 v) + ∑ e ∈ Finset.univ.filter (fun e : Fin 850000 => (idx (ix2 e (0 : Fin 1))).toInt = (v.val : Int)), upd (ix1 e) := by
  unfold Host.scatterAdd
  rw [Ideal.hostScatterAdd_def, vecScatter_eq]
  exact scatterAdd_vec_apply _ x idx upd v

/-- Entry (v, k) of the accumulated table: the old entry plus the update rows of the positions whose word reads v. -/
theorem scatterRow_core (x : FVec Ideal S50000x128 .f32) (idx : IVec S850000x1 32) (upd : FVec Ideal S850000x128 .f32)
    (v : Fin 50000) (k : Fin 128) :
    Host.scatterAdd scatter_S50000x128_S850000x1_S850000x128_1_0_0_1 x idx upd (ix2 v k)
      = x (ix2 v k) + ∑ e ∈ Finset.univ.filter (fun e : Fin 850000 => (idx (ix2 e (0 : Fin 1))).toInt = (v.val : Int)), upd (ix2 e k) := by
  unfold Host.scatterAdd
  rw [Ideal.hostScatterAdd_def, rowScatter_eq]
  exact scatterAdd_row_apply _ x idx upd v k

/-- Entry e of the gathered vector: the table's entry at the e-th word, read signed and clamped. -/
theorem gatherVec_core (x : FVec Ideal S50000 .f32) (idx : IVec S850000x1 32) (e : Fin 850000) :
    Host.gather gather_S50000_S850000x1_S850000_n_0_n_n_0_1_1 x idx (ix1 e)
      = x (ix1 ⟨min (idx (ix2 e (0 : Fin 1))).toInt.toNat (50000 - 1), by omega⟩) := by
  rw [vecGather_eq]
  exact gather_vec_apply (by decide) _ x idx e

/-- Entry (e, k) of the gathered rows: entry k of the table's row at the e-th word, read signed and clamped. -/
theorem gatherRow_core (x : FVec Ideal S50000x128 .f32) (idx : IVec S850000x1 32) (e : Fin 850000) (k : Fin 128) :
    Host.gather gather_S50000x128_S850000x1_S850000x128_1_0_n_n_0_1_1128 x idx (ix2 e k)
      = x (ix2 ⟨min (idx (ix2 e (0 : Fin 1))).toInt.toNat (50000 - 1), by omega⟩ k) := by
  rw [rowGather_eq]
  exact gather_row_apply (by decide) _ x idx e k

/-! ## Columns: a vector of 850000 entries laid out as an [850000, 1] column -/

/-- Position (e, 0) of a column is position e of the vector. -/
theorem col_idx (e : Fin 850000) : idx_main_v9 (ix2 e (0 : Fin 1)) = ix1 e := by
  funext a; match a with | ⟨0, _⟩ => rfl

/-- The destination words as a column (the scatter index of the edge count). -/
theorem v9_col (e : Fin 850000) :
    val_main_v9 (F := Ideal) x1 (ix2 e (0 : Fin 1)) = val_main_v6 (F := Ideal) x1 (ix1 e) := by
  rw [val_main_v9_apply, col_idx]

/-- The destination words as a column (the scatter index of the row sums). -/
theorem v40_col (e : Fin 850000) :
    val_main_v40 (F := Ideal) x1 (ix2 e (0 : Fin 1)) = val_main_v6 (F := Ideal) x1 (ix1 e) := by
  rw [val_main_v40_apply, show idx_main_v40 (ix2 e (0 : Fin 1)) = ix1 e from col_idx e]

/-- The source words, shifted where negative, as a column (the gather index of dinv at the source). -/
theorem v19_col (e : Fin 850000) :
    val_main_v19 (F := Ideal) x1 (ix2 e (0 : Fin 1)) = Spec.wrapW (val_main_v5 (F := Ideal) x1 (ix1 e)) := by
  rw [val_main_v19_apply, show idx_main_v19 (ix2 e (0 : Fin 1)) = ix1 e from col_idx e, val_main_v18_apply,
    val_main_v15_apply, val_main_v17_apply, val_main_v14_apply, val_main_v16_apply, val_main_c_apply, val_main_c_2_apply]
  rfl

/-- The destination words, shifted where negative, as a column (the gather index of dinv at the destination). -/
theorem v26_col (e : Fin 850000) :
    val_main_v26 (F := Ideal) x1 (ix2 e (0 : Fin 1)) = Spec.wrapW (val_main_v6 (F := Ideal) x1 (ix1 e)) := by
  rw [val_main_v26_apply, show idx_main_v26 (ix2 e (0 : Fin 1)) = ix1 e from col_idx e, val_main_v25_apply,
    val_main_v22_apply, val_main_v24_apply, val_main_v21_apply, val_main_v23_apply, val_main_c_3_apply, val_main_c_4_apply]
  rfl

/-- The source words, shifted where negative, as a column (the gather index of the feature rows). -/
theorem v34_col (e : Fin 850000) :
    val_main_v34 (F := Ideal) x1 (ix2 e (0 : Fin 1)) = Spec.wrapW (val_main_v5 (F := Ideal) x1 (ix1 e)) := by
  rw [val_main_v34_apply, show idx_main_v34 (ix2 e (0 : Fin 1)) = ix1 e from col_idx e, val_main_v33_apply,
    val_main_v30_apply, val_main_v32_apply, val_main_v29_apply, val_main_v31_apply, val_main_c_5_apply, val_main_c_6_apply]
  rfl

/-- The clamped row number the gathers produce is the row Spec.rowOf names. -/
theorem rowOf_eq (s : BitVec 32) (h : min (Spec.wrapW s).toInt.toNat (50000 - 1) < 50000) :
    (⟨min (Spec.wrapW s).toInt.toNat (50000 - 1), h⟩ : Fin 50000) = Spec.rowOf s := rfl

/-! ## The edge count and dinv -/

/-- The accumulating scatter of ones at the destination words counts the edges into each node. -/
theorem deg_apply (v : Fin 50000) :
    val_main_v10 (F := Ideal) x1 (ix1 v) = Spec.deg (val_main_v6 (F := Ideal) x1) v := by
  unfold val_main_v10
  rw [scatterVec_core]
  unfold Spec.deg Spec.into
  simp only [v9_col, val_main_v8_apply, val_main_cst_0_apply, val_main_v7_apply, val_main_cst_apply, Ideal.ofBits_def]

/-- dinv, read at a node. -/
theorem dinv_apply (v : Fin 50000) :
    val_main_v13 (F := Ideal) x1 (ix1 v) = Spec.dinv (val_main_v6 (F := Ideal) x1) v := by
  rw [val_main_v13_apply, val_main_v12_apply, deg_apply, val_main_v11_apply, val_main_cst_1_apply,
    Ideal.hostUnary_rsqrt_def, Ideal.maximumf_def, Ideal.ofBits_def]
  rfl

/-! ## The edge weights -/

/-- dinv gathered at the edges' source rows. -/
theorem v20_apply (e : Fin 850000) :
    val_main_v20 (F := Ideal) x1 (ix1 e)
      = Spec.dinv (val_main_v6 (F := Ideal) x1) (Spec.rowOf (val_main_v5 (F := Ideal) x1 (ix1 e))) := by
  unfold val_main_v20
  rw [gatherVec_core, dinv_apply]
  simp only [v19_col, rowOf_eq]

/-- dinv gathered at the edges' destination rows. -/
theorem v27_apply (e : Fin 850000) :
    val_main_v27 (F := Ideal) x1 (ix1 e)
      = Spec.dinv (val_main_v6 (F := Ideal) x1) (Spec.rowOf (val_main_v6 (F := Ideal) x1 (ix1 e))) := by
  unfold val_main_v27
  rw [gatherVec_core, dinv_apply]
  simp only [v26_col, rowOf_eq]

/-- An edge's weight. -/
theorem v28_apply (e : Fin 850000) :
    val_main_v28 (F := Ideal) x1 (ix1 e)
      = Spec.rNorm (val_main_v5 (F := Ideal) x1) (val_main_v6 (F := Ideal) x1) e := by
  rw [val_main_v28_apply, v20_apply, v27_apply, Ideal.mulf_def]
  rfl

/-- Row e of the weights broadcast along the 128 features is edge e's weight. -/
theorem row_col_idx (e : Fin 850000) (k : Fin 128) : idx_main_v36 (idx_main_v37 (ix2 e k)) = ix1 e := by
  funext a; match a with | ⟨0, _⟩ => rfl

theorem v37_apply (e : Fin 850000) (k : Fin 128) :
    val_main_v37 (F := Ideal) x1 (ix2 e k)
      = Spec.rNorm (val_main_v5 (F := Ideal) x1) (val_main_v6 (F := Ideal) x1) e := by
  rw [val_main_v37_apply, val_main_v36_apply, row_col_idx, v28_apply]

/-! ## The weighted messages summed into their destination nodes, for any node features -/

theorem agg_apply (Y : FVec Ideal S50000x128 .f32) (v : Fin 50000) (k : Fin 128) :
    Host.scatterAdd scatter_S50000x128_S850000x1_S850000x128_1_0_0_1 (val_main_v39 (F := Ideal)) (val_main_v40 (F := Ideal) x1)
      (mulf (Host.gather gather_S50000x128_S850000x1_S850000x128_1_0_n_n_0_1_1128 Y (val_main_v34 (F := Ideal) x1))
        (val_main_v37 (F := Ideal) x1)) (ix2 v k)
    = Spec.rAgg (val_main_v5 (F := Ideal) x1) (val_main_v6 (F := Ideal) x1) (fun u k' => Y (ix2 u k')) v k := by
  rw [scatterRow_core, val_main_v39_apply, val_main_cst_7_apply, Ideal.ofBits_def]
  unfold Spec.rAgg Spec.into
  simp only [v40_col, mulf_apply, v37_apply, gatherRow_core, v34_col, rowOf_eq]

/-! ## The first layer -/

theorem v41_apply (x2 : FVec Ideal S50000x128 .f32) (v : Fin 50000) (k : Fin 128) :
    val_main_v41 (F := Ideal) x1 x2 (ix2 v k)
      = Spec.rAgg (val_main_v5 (F := Ideal) x1) (val_main_v6 (F := Ideal) x1) (fun u k' => x2 (ix2 u k')) v k := by
  unfold val_main_v41 val_main_v38 val_main_v35
  exact agg_apply x1 x2 v k

theorem lidx42 (v : Fin 50000) (j k : Fin 128) : lidx_main_v42 (ix2 v j) k = ix2 v k := by
  funext a; match a with | ⟨0, _⟩ => rfl | ⟨1, _⟩ => rfl
theorem ridx42 (v : Fin 50000) (j k : Fin 128) : ridx_main_v42 (ix2 v j) k = ix2 k j := by
  funext a; match a with | ⟨0, _⟩ => rfl | ⟨1, _⟩ => rfl
theorem bias44 (v : Fin 50000) (j : Fin 128) : idx_main_v43 (idx_main_v44 (ix2 v j)) = ix1 j := by
  funext a; match a with | ⟨0, _⟩ => rfl

/-- The first layer's output, read at a node and a feature. -/
theorem v46_apply (x2 : FVec Ideal S50000x128 .f32) (x3 : FVec Ideal S128x128 .f32) (x4 : FVec Ideal S128 .f32)
    (v : Fin 50000) (j : Fin 128) :
    val_main_v46 (F := Ideal) x1 x2 x3 x4 (ix2 v j)
      = Spec.rH (val_main_v5 (F := Ideal) x1) (val_main_v6 (F := Ideal) x1) x2 x3 x4 v j := by
  rw [val_main_v46_apply, val_main_v45_apply, val_main_v42_apply, val_main_v44_apply, val_main_v43_apply, bias44,
    val_main_call0_v0_apply, val_main_call0_cst_apply, Ideal.maximumf_def, Ideal.addf_def, Ideal.ofBits_def]
  unfold Spec.rH
  simp only [lidx42, ridx42, v41_apply]

/-! ## The second layer

The second layer recomputes the edge words, dinv, the weights and the index columns by the same operations of the same
input: those arrays are the first layer's. -/

theorem e86 : val_main_v86 (F := Ideal) = val_main_v39 (F := Ideal) := rfl
theorem e87 : val_main_v87 (F := Ideal) x1 = val_main_v40 (F := Ideal) x1 := rfl
theorem e81 : val_main_v81 (F := Ideal) x1 = val_main_v34 (F := Ideal) x1 := rfl
theorem e84 : val_main_v84 (F := Ideal) x1 = val_main_v37 (F := Ideal) x1 := rfl

/-- The second layer's summed messages are the first layer's aggregation applied to the first layer's output. -/
theorem v88_apply (x2 : FVec Ideal S50000x128 .f32) (x3 : FVec Ideal S128x128 .f32) (x4 : FVec Ideal S128 .f32)
    (v : Fin 50000) (k : Fin 128) :
    val_main_v88 (F := Ideal) x1 x2 x3 x4 (ix2 v k)
      = Spec.rAgg (val_main_v5 (F := Ideal) x1) (val_main_v6 (F := Ideal) x1)
          (Spec.rH (val_main_v5 (F := Ideal) x1) (val_main_v6 (F := Ideal) x1) x2 x3 x4) v k := by
  have hY : (fun (u : Fin 50000) (k' : Fin 128) => val_main_v46 (F := Ideal) x1 x2 x3 x4 (ix2 u k'))
      = Spec.rH (val_main_v5 (F := Ideal) x1) (val_main_v6 (F := Ideal) x1) x2 x3 x4 := by
    funext u k'; exact v46_apply x1 x2 x3 x4 u k'
  unfold val_main_v88 val_main_v85 val_main_v82
  rw [e86, e87, e81, e84, agg_apply, hY]

theorem lidx89 (v : Fin 50000) (j : Fin 64) (k : Fin 128) : lidx_main_v89 (ix2 v j) k = ix2 v k := by
  funext a; match a with | ⟨0, _⟩ => rfl | ⟨1, _⟩ => rfl
theorem ridx89 (v : Fin 50000) (j : Fin 64) (k : Fin 128) : ridx_main_v89 (ix2 v j) k = ix2 k j := by
  funext a; match a with | ⟨0, _⟩ => rfl | ⟨1, _⟩ => rfl
theorem bias91 (v : Fin 50000) (j : Fin 64) : idx_main_v90 (idx_main_v91 (ix2 v j)) = ix1 j := by
  funext a; match a with | ⟨0, _⟩ => rfl

/-- The reference program's result, read at a node and an output feature, is Spec.rOut of the program's edge words. -/
theorem ref_is_spec (x2 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (v : Fin 50000) (j : Fin 64) :
    Cert.ReferenceIdeal.Read.val_main_v92 (F := Ideal) x1 x2 x3 x4 x5 x6 (ix2 v j)
      = Cert.Spec.rOut (Cert.ReferenceIdeal.Read.val_main_v5 (F := Ideal) x1) (Cert.ReferenceIdeal.Read.val_main_v6 (F := Ideal) x1)
          x2 x3 x4 x5 x6 v j := by
  rw [val_main_v92_apply, val_main_v89_apply, val_main_v91_apply, val_main_v90_apply, bias91, Ideal.addf_def]
  unfold Spec.rOut
  simp only [lidx89, ridx89, v88_apply]

end Cert.RefSpec

end
-- ==== Proof.Algebra.lean ====
/-
  The two computations of the graph convolution agree when every input entry is a real number.

  The degree normalisation dinv is then real at every node, so every intermediate entry is the coercion of a
  real number, and the claim becomes an identity between finite sums of real numbers: a factor that does not
  depend on the edge moves out of the sum over the edges, and the sum over the edges commutes with the sum over
  the contraction index of the weight matrix.
-/
import proofs.«121720_j3246995276080_2_alg».proof.Proof.Spec
import Idealize.ShloMosaic.PureOps.Ideal.Laws

noncomputable section

open scoped BigOperators

namespace Cert.Spec

open Idealize.ShloMosaic Idealize.ShloMosaic.ValueIdx

/-! ### Coercions of real numbers into the extended reals -/

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- The larger of two coerced reals is the coercion of the larger real. -/
theorem coe_max (a b : ℝ) : max (a : EReal) (b : EReal) = ((max a b : ℝ) : EReal) :=
  (EReal.coe_strictMono.monotone.map_max).symm

/-- The float word of zero is the real number zero. -/
theorem zeroW_eq : zeroW = ((0 : ℝ) : EReal) := by
  show Ideal.ofBits .f32 0x00000000#32 = _
  rw [Ideal.ofBits_zero_f32]; rfl

/-- The float word of one is the real number one. -/
theorem oneW_eq : oneW = ((1 : ℝ) : EReal) := by
  show Ideal.ofBits .f32 0x3F800000#32 = _
  simp [Ideal.ofBits, Ideal.ieee, -EReal.coe_mul]; norm_num

/-! ### Destination words -/

/-- A word that reads as a node number is not shifted, and names that node's row. -/
theorem rowOf_of_toInt {s : BitVec 32} {v : Fin 50000} (h : s.toInt = (v.val : Int)) : rowOf s = v := by
  have hv := v.isLt
  have hw : wrapW s = s := by
    have hs : s.slt 0#32 = false := by
      simp [BitVec.slt, h]
    have hc : Scalar.cmpi .slt s 0#32 = 0#1 := by
      show BitVec.ofBool (s.slt 0#32) = 0#1
      rw [hs]; rfl
    unfold wrapW Scalar.select
    rw [hc, if_neg (by decide)]
  apply Fin.ext
  simp only [rowOf, hw, h]
  omega

theorem rowOf_of_mem_into {dst : (⟨1, ![850000]⟩ : Shape).Idx → BitVec 32} {v : Fin 50000} {e : Fin 850000}
    (he : e ∈ into dst v) : rowOf (dst (ix1 e)) = v := by
  simp only [into, Finset.mem_filter, Finset.mem_univ, true_and] at he
  exact rowOf_of_toInt he

/-! ### The degree normalisation is real -/

theorem dinv_real (dst : (⟨1, ![850000]⟩ : Shape).Idx → BitVec 32) (u : Fin 50000) :
    ∃ r : ℝ, dinv dst u = (r : EReal) := by
  have hdeg : deg dst u = (((into dst u).card : ℝ) : EReal) := by
    unfold deg
    rw [zeroW_eq, oneW_eq, coe_sum, ← EReal.coe_add, Finset.sum_const, nsmul_eq_mul, mul_one, zero_add]
  refine ⟨(Real.sqrt (max ((into dst u).card : ℝ) 1))⁻¹, ?_⟩
  unfold dinv
  rw [hdeg, oneW_eq, coe_max, Ideal.rsqrt_coe]
  have h1 : (1 : ℝ) ≤ max ((into dst u).card : ℝ) 1 := le_max_right _ _
  rw [if_neg (by linarith), if_neg (by linarith)]

/-! ### The first layer, as real numbers -/

section
variable (src dst : (⟨1, ![850000]⟩ : Shape).Idx → BitVec 32)

/-- Along the edges into v the destination row is v. -/
theorem rAgg_eq (Y : Fin 50000 → Fin 128 → EReal) (v : Fin 50000) (k : Fin 128) :
    rAgg src dst Y v k
      = zeroW + ∑ e ∈ into dst v, Y (rowOf (src (ix1 e))) k * (dinv dst (rowOf (src (ix1 e))) * dinv dst v) := by
  unfold rAgg
  refine congrArg (fun t => zeroW + t) (Finset.sum_congr rfl fun e he => ?_)
  rw [rNorm, rowOf_of_mem_into he]

variable (Xr : (⟨2, ![50000, 128]⟩ : Shape).Idx → ℝ) (W0r : (⟨2, ![128, 128]⟩ : Shape).Idx → ℝ)
  (b0r : (⟨1, ![128]⟩ : Shape).Idx → ℝ) (W1r : (⟨2, ![128, 64]⟩ : Shape).Idx → ℝ)
  (b1r : (⟨1, ![64]⟩ : Shape).Idx → ℝ) (d : Fin 50000 → ℝ)

/-- The first layer's output over the reals, for a real normalisation d. -/
def hR (v : Fin 50000) (j : Fin 128) : ℝ :=
  max ((∑ k : Fin 128,
    ((∑ e ∈ into dst v, Xr (ix2 (rowOf (src (ix1 e))) k) * d (rowOf (src (ix1 e)))) * d v) * W0r (ix2 k j))
      + b0r (ix1 j)) 0

theorem kH_eq (hd : ∀ u, dinv dst u = ((d u : ℝ) : EReal)) (v : Fin 50000) (j : Fin 128) :
    kH src dst (fun i => ((Xr i : ℝ) : EReal)) (fun i => ((W0r i : ℝ) : EReal)) (fun i => ((b0r i : ℝ) : EReal)) v j
      = ((hR src dst Xr W0r b0r d v j : ℝ) : EReal) := by
  unfold kH kAgg0 hR
  simp only [hd, zeroW_eq, ← EReal.coe_mul, ← EReal.coe_add, coe_sum, coe_max, zero_add]

theorem rH_eq (hd : ∀ u, dinv dst u = ((d u : ℝ) : EReal)) (v : Fin 50000) (j : Fin 128) :
    rH src dst (fun i => ((Xr i : ℝ) : EReal)) (fun i => ((W0r i : ℝ) : EReal)) (fun i => ((b0r i : ℝ) : EReal)) v j
      = ((hR src dst Xr W0r b0r d v j : ℝ) : EReal) := by
  have hagg : ∀ k : Fin 128,
      ∑ e ∈ into dst v, Xr (ix2 (rowOf (src (ix1 e))) k) * (d (rowOf (src (ix1 e))) * d v)
        = (∑ e ∈ into dst v, Xr (ix2 (rowOf (src (ix1 e))) k) * d (rowOf (src (ix1 e)))) * d v := by
    intro k
    rw [Finset.sum_mul]
    exact Finset.sum_congr rfl fun e _ => (mul_assoc _ _ _).symm
  unfold rH hR
  simp only [rAgg_eq, hd, zeroW_eq, ← EReal.coe_mul, ← EReal.coe_add, coe_sum, coe_max, zero_add, hagg]

/-! ### The second layer, as real numbers -/

theorem kOut_eq (hd : ∀ u, dinv dst u = ((d u : ℝ) : EReal)) (v : Fin 50000) (j : Fin 64) :
    kOut src dst (fun i => ((Xr i : ℝ) : EReal)) (fun i => ((W0r i : ℝ) : EReal)) (fun i => ((b0r i : ℝ) : EReal))
        (fun i => ((W1r i : ℝ) : EReal)) (fun i => ((b1r i : ℝ) : EReal)) v j
      = (((∑ e ∈ into dst v, ∑ k : Fin 128,
            (hR src dst Xr W0r b0r d (rowOf (src (ix1 e))) k * d (rowOf (src (ix1 e)))) * W1r (ix2 k j)) * d v
          + b1r (ix1 j) : ℝ) : EReal) := by
  unfold kOut kAgg1 kP
  simp only [kH_eq src dst Xr W0r b0r d hd, hd, zeroW_eq, ← EReal.coe_mul, ← EReal.coe_add, coe_sum, zero_add]

theorem rOut_eq (hd : ∀ u, dinv dst u = ((d u : ℝ) : EReal)) (v : Fin 50000) (j : Fin 64) :
    rOut src dst (fun i => ((Xr i : ℝ) : EReal)) (fun i => ((W0r i : ℝ) : EReal)) (fun i => ((b0r i : ℝ) : EReal))
        (fun i => ((W1r i : ℝ) : EReal)) (fun i => ((b1r i : ℝ) : EReal)) v j
      = (((∑ k : Fin 128, (∑ e ∈ into dst v,
            hR src dst Xr W0r b0r d (rowOf (src (ix1 e))) k * (d (rowOf (src (ix1 e))) * d v)) * W1r (ix2 k j))
          + b1r (ix1 j) : ℝ) : EReal) := by
  unfold rOut
  simp only [rAgg_eq, rH_eq src dst Xr W0r b0r d hd, hd, zeroW_eq, ← EReal.coe_mul, ← EReal.coe_add, coe_sum,
    zero_add]

/-- The real identity behind the second layer: the destination factor leaves the edge sum, and the edge sum
    commutes with the contraction. -/
theorem second_layer_real (H : Fin 50000 → Fin 128 → ℝ) (v : Fin 50000) (j : Fin 64) :
    (∑ e ∈ into dst v, ∑ k : Fin 128, (H (rowOf (src (ix1 e))) k * d (rowOf (src (ix1 e)))) * W1r (ix2 k j)) * d v
      = ∑ k : Fin 128, (∑ e ∈ into dst v, H (rowOf (src (ix1 e))) k * (d (rowOf (src (ix1 e))) * d v)) * W1r (ix2 k j) := by
  simp only [Finset.sum_mul]
  rw [Finset.sum_comm]
  refine Finset.sum_congr rfl fun k _ => ?_
  refine Finset.sum_congr rfl fun e _ => ?_
  ring

end

/-! ### The two computations agree on real inputs -/

theorem kOut_eq_rOut (src dst : (⟨1, ![850000]⟩ : Shape).Idx → BitVec 32)
    (X : (⟨2, ![50000, 128]⟩ : Shape).Idx → EReal) (W0 : (⟨2, ![128, 128]⟩ : Shape).Idx → EReal)
    (b0 : (⟨1, ![128]⟩ : Shape).Idx → EReal) (W1 : (⟨2, ![128, 64]⟩ : Shape).Idx → EReal)
    (b1 : (⟨1, ![64]⟩ : Shape).Idx → EReal)
    (hX : ∀ i, ∃ r : ℝ, X i = (r : EReal)) (hW0 : ∀ i, ∃ r : ℝ, W0 i = (r : EReal))
    (hb0 : ∀ i, ∃ r : ℝ, b0 i = (r : EReal)) (hW1 : ∀ i, ∃ r : ℝ, W1 i = (r : EReal))
    (hb1 : ∀ i, ∃ r : ℝ, b1 i = (r : EReal)) (v : Fin 50000) (j : Fin 64) :
    kOut src dst X W0 b0 W1 b1 v j = rOut src dst X W0 b0 W1 b1 v j := by
  choose Xr hXr using hX
  choose W0r hW0r using hW0
  choose b0r hb0r using hb0
  choose W1r hW1r using hW1
  choose b1r hb1r using hb1
  choose d hd using dinv_real dst
  obtain rfl : X = fun i => ((Xr i : ℝ) : EReal) := funext hXr
  obtain rfl : W0 = fun i => ((W0r i : ℝ) : EReal) := funext hW0r
  obtain rfl : b0 = fun i => ((b0r i : ℝ) : EReal) := funext hb0r
  obtain rfl : W1 = fun i => ((W1r i : ℝ) : EReal) := funext hW1r
  obtain rfl : b1 = fun i => ((b1r i : ℝ) : EReal) := funext hb1r
  rw [kOut_eq src dst Xr W0r b0r W1r b1r d hd, rOut_eq src dst Xr W0r b0r W1r b1r d hd,
    second_layer_real src dst W1r d]

end Cert.Spec

end
-- ==== Proof.Finite.lean ====
/-
  From the precondition to "every float input entry is a real number".

  The precondition is the conjunction of five tests, one per float input array: every entry's absolute value lies
  strictly below +∞.  A conjunction of bits that is one has every conjunct one; a conjunction over a whole array
  that is one has a one at every index; and an extended real whose absolute value lies below +∞ is neither +∞ nor
  −∞, so it is the coercion of a real number.
-/
import proofs.«121720_j3246995276080_2_alg».proof.Defs
import proofs.«121720_j3246995276080_2_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The shape of a single value has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value lies strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; simp [Ideal.cmp] at h
  | coe r => exact ⟨r, rfl⟩
  | top => exfalso; simp [Ideal.cmp] at h

/-- One test read at an index: the entry there is a real number. -/
theorem real_of_test {s : Shape} (bc : S_.BroadcastsInDim s (![] : Fin 0 → Fin s.rank)) (A : FVec Ideal s .f32)
    (i : s.Idx)
    (h : cmpf .olt (Host.absf A) (broadcastInDim s ![] bc (constant (F := Ideal) S_ .f32 0x7F800000#32)) i = 1#1) :
    ∃ r : ℝ, A i = (r : EReal) :=
  real_of_abs_lt_inf (A i) h

theorem real_of_pre [Cert.Pre_finite_inputs.Facts]
    (a0 : IVec S50000 32) (a1 : IVec S2x800000 32) (X : FVec Ideal S50000x128 .f32) (W0 : FVec Ideal S128x128 .f32)
    (b0 : FVec Ideal S128 .f32) (W1 : FVec Ideal S128x64 .f32) (b1 : FVec Ideal S64 .f32)
    (h : Cert.Pre_finite_inputs.fn (F := Ideal) a0 a1 X W0 b0 W1 b1 = fun _ => 1#1) :
    (∀ i, ∃ r : ℝ, X i = (r : EReal)) ∧ (∀ i, ∃ r : ℝ, W0 i = (r : EReal)) ∧ (∀ i, ∃ r : ℝ, b0 i = (r : EReal))
      ∧ (∀ i, ∃ r : ℝ, W1 i = (r : EReal)) ∧ (∀ i, ∃ r : ℝ, b1 i = (r : EReal)) := by
  have e := congrFun h ValueIdx.ix0
  unfold Cert.Pre_finite_inputs.fn Cert.Pre_finite_inputs.fn_part1 at e
  dsimp only at e
  simp only [andi, IntOp.andi_eq_one] at e
  obtain ⟨⟨⟨⟨hX, hW0⟩, hb0⟩, hW1⟩, hb1⟩ := e
  exact ⟨fun i => real_of_test _ X i (Host.reduce_andi_all _ _ _ _ _ hX i),
    fun i => real_of_test _ W0 i (Host.reduce_andi_all _ _ _ _ _ hW0 i),
    fun i => real_of_test _ b0 i (Host.reduce_andi_all _ _ _ _ _ hb0 i),
    fun i => real_of_test _ W1 i (Host.reduce_andi_all _ _ _ _ _ hW1 i),
    fun i => real_of_test _ b1 i (Host.reduce_andi_all _ _ _ _ _ hb1 i)⟩

end Cert.Finite

end
-- ==== Proof.lean ====
/-
  A two-layer graph convolution computed two ways is one function of its inputs over the extended reals.

  Both programs normalise by D^(-1/2) A D^(-1/2), D the in-degrees (self-loops included, clipped below at one).  The
  kernel program scales the features by dinv at the source before summing over the edges and by dinv at the destination
  after it, and in the second layer multiplies by the weight matrix before summing over the edges; the reference
  multiplies each edge's message by dinv(source) · dinv(destination) and applies the weight matrix to the summed
  messages.  With every float input a real number, dinv is real, and the two agree by distributivity and an exchange of
  finite sums; an edge counted into node v has destination row v, which is what lets dinv(destination) leave the sum.
  The frames are the generated ones; the idealization rewrote nothing.
-/
import proofs.«121720_j3246995276080_2_alg».proof.Defs
import proofs.«121720_j3246995276080_2_alg».proof.Proof.Gen.Kernel
import proofs.«121720_j3246995276080_2_alg».proof.Proof.Gen.Kernel.Frame
import proofs.«121720_j3246995276080_2_alg».proof.Proof.Gen.KernelIdeal
import proofs.«121720_j3246995276080_2_alg».proof.Proof.Gen.KernelIdeal.Frame
import proofs.«121720_j3246995276080_2_alg».proof.Proof.Gen.ReferenceIdeal
import proofs.«121720_j3246995276080_2_alg».proof.Proof.Gen.Pre_finite_inputs
import proofs.«121720_j3246995276080_2_alg».proof.Proof.Gen.ReferenceIdeal.Run
import proofs.«121720_j3246995276080_2_alg».proof.Proof.Gen.ReferenceIdeal.Read
import proofs.«121720_j3246995276080_2_alg».proof.Proof.KernelHost
import proofs.«121720_j3246995276080_2_alg».proof.Proof.KernelIsSpec
import proofs.«121720_j3246995276080_2_alg».proof.Proof.RefIsSpec
import proofs.«121720_j3246995276080_2_alg».proof.Proof.Algebra
import proofs.«121720_j3246995276080_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's edge sources are the kernel program's: the same operations of the edge array. -/
theorem src_eq (E : IVec Cert.KernelIdeal.S2x800000 32) :
    Cert.ReferenceIdeal.Read.val_main_v5 (F := Ideal) E = Cert.KernelIdeal.KHost.srcK E := rfl

/-- The reference's edge destinations are the kernel program's. -/
theorem dst_eq (E : IVec Cert.KernelIdeal.S2x800000 32) :
    Cert.ReferenceIdeal.Read.val_main_v6 (F := Ideal) E = Cert.KernelIdeal.KHost.dstK E := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two results, entry by entry: both are the specification's functions of the same inputs, which agree on reals. -/
theorem results_eq (E : IVec Cert.KernelIdeal.S2x800000 32) (X : FVec Ideal Cert.KernelIdeal.S50000x128 .f32)
    (W0 : FVec Ideal Cert.KernelIdeal.S128x128 .f32) (b0 : FVec Ideal Cert.KernelIdeal.S128 .f32)
    (W1 : FVec Ideal Cert.KernelIdeal.S128x64 .f32) (b1 : FVec Ideal Cert.KernelIdeal.S64 .f32)
    (hX : ∀ i, ∃ r : ℝ, X i = (r : EReal)) (hW0 : ∀ i, ∃ r : ℝ, W0 i = (r : EReal)) (hb0 : ∀ i, ∃ r : ℝ, b0 i = (r : EReal))
    (hW1 : ∀ i, ∃ r : ℝ, W1 i = (r : EReal)) (hb1 : ∀ i, ∃ r : ℝ, b1 i = (r : EReal)) :
    Cert.ReferenceIdeal.Read.val_main_v92 (F := Ideal) E X W0 b0 W1 b1 = Cert.KernelIdeal.KHost.outK E X W0 b0 W1 b1 := by
  funext i
  obtain ⟨v, j, rfl⟩ : ∃ (v : Fin 50000) (j : Fin 64), i = ix2 v j := ⟨i 0, i 1, eq_ix2 i⟩
  rw [Cert.RefSpec.ref_is_spec, src_eq, dst_eq]
  unfold Cert.KernelIdeal.KHost.outK
  rw [Cert.KernelSpec.kernel_is_spec]
  exact (Cert.Spec.kOut_eq_rOut _ _ X W0 b0 W1 b1 hX hW0 hb0 hW1 hb1 v j).symm

theorem algebraic : Cert.algebraic_KernelIdeal_ReferenceIdeal := by
  intro m ρ m' ρ' hpre hagree
  refine ⟨fun c => Cert.KernelIdeal.KHost.outK (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KHost.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW0, hb0, hW1, hb1⟩ := Cert.Finite.real_of_pre _ _ _ _ _ _ _ (hpre c)
  rw [Cert.ReferenceIdeal.Read.val_main_v92_eq, (hagree c).2.1, (hagree c).2.2.1, (hagree c).2.2.2.1, (hagree c).2.2.2.2.1,
    (hagree c).2.2.2.2.2.1, (hagree c).2.2.2.2.2.2]
  exact results_eq _ _ _ _ _ _ hX hW0 hb0 hW1 hb1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
